-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x32768 : Shape := ⟨3, ![256, 2, 32768]⟩
abbrev S2x1077248 : Shape := ⟨2, ![2, 1077248]⟩
abbrev S_ : Shape := ⟨0, ![]⟩

class Facts : Prop where
  bcast_S_S256x2x32768 : S_.BroadcastsInDim S256x2x32768 (![] : Fin 0 → Fin S256x2x32768.rank)
  reducesTo_S256x2x32768_S_d0_1_2 : S256x2x32768.ReducesTo [0, 1, 2] S_
  h_S_ : 0 < S_.numel
  bcast_S_S2x1077248 : S_.BroadcastsInDim S2x1077248 (![] : Fin 0 → Fin S2x1077248.rank)
  reducesTo_S2x1077248_S_d0_1 : S2x1077248.ReducesTo [0, 1] S_

variable [Facts]

def fn {F : FTy → Type} [FloatOps F] (main_arg0 : FVec F S256x2x32768 .f32) (main_arg1 : FVec F S2x1077248 .f32) : IVec S_ 1 :=
  let main_v0 : FVec F S256x2x32768 .f32 := Host.absf main_arg0
  let main_cst : FVec F S_ .f32 := constant S_ .f32 0x7F800000#32
  let main_v1 : FVec F S256x2x32768 .f32 := broadcastInDim S256x2x32768 ![] bcast_S_S256x2x32768 main_cst
  let main_v2 : IVec S256x2x32768 1 := cmpf .olt main_v0 main_v1
  let main_c : IVec S_ 1 := constantI S_ 1 1#1
  let main_v3 : IVec S_ 1 := (fun x v => Host.reduce IntOp.andi x v reducesTo_S256x2x32768_S_d0_1_2 h_S_) main_v2 main_c
  let main_v4 : FVec F S2x1077248 .f32 := Host.absf main_arg1
  let main_cst_0 : FVec F S_ .f32 := constant S_ .f32 0x7F800000#32
  let main_v5 : FVec F S2x1077248 .f32 := broadcastInDim S2x1077248 ![] bcast_S_S2x1077248 main_cst_0
  let main_v6 : IVec S2x1077248 1 := cmpf .olt main_v4 main_v5
  let main_c_1 : IVec S_ 1 := constantI S_ 1 1#1
  let main_v7 : IVec S_ 1 := (fun x v => Host.reduce IntOp.andi x v reducesTo_S2x1077248_S_d0_1 h_S_) main_v6 main_c_1
  let main_v8 : IVec S_ 1 := andi main_v3 main_v7
  main_v8
-- ==== Kernel.lean ====
abbrev S256x2x32768 : Shape := ⟨3, ![256, 2, 32768]⟩
abbrev S2x1077248 : Shape := ⟨2, ![2, 1077248]⟩
abbrev S256x2x256x128 : Shape := ⟨4, ![256, 2, 256, 128]⟩
abbrev S2x8416x128 : Shape := ⟨3, ![2, 8416, 128]⟩
abbrev S2x8192x128 : Shape := ⟨3, ![2, 8192, 128]⟩
abbrev S64x1x256x128 : Shape := ⟨4, ![64, 1, 256, 128]⟩
abbrev S1x8416x128 : Shape := ⟨3, ![1, 8416, 128]⟩
abbrev S1x2048x128 : Shape := ⟨3, ![1, 2048, 128]⟩
abbrev S8416x128 : Shape := ⟨2, ![8416, 128]⟩
abbrev S1x1x256x128 : Shape := ⟨4, ![1, 1, 256, 128]⟩
abbrev S256x128 : Shape := ⟨2, ![256, 128]⟩
abbrev S1x256x128 : Shape := ⟨3, ![1, 256, 128]⟩
abbrev S2048x128 : Shape := ⟨2, ![2048, 128]⟩
abbrev S1x224x128 : Shape := ⟨3, ![1, 224, 128]⟩
abbrev S224x128 : Shape := ⟨2, ![224, 128]⟩
abbrev S8192x128 : Shape := ⟨2, ![8192, 128]⟩
abbrev S1x8192x128 : Shape := ⟨3, ![1, 8192, 128]⟩
abbrev S2x1048576 : Shape := ⟨2, ![2, 1048576]⟩
abbrev S1x2x1048576 : Shape := ⟨3, ![1, 2, 1048576]⟩

abbrev nBuf : Space → Nat
  | .hbm => 9
  | .vmem => 6
  | .smem => 0
  | _ => 0

abbrev bufTy : (tb : Table) → Fin (tcTables nBuf tb) → BufTy
  | .hbm, ⟨0, _⟩ => ⟨S256x2x32768, .f32⟩
  | .hbm, ⟨1, _⟩ => ⟨S2x1077248, .f32⟩
  | .hbm, ⟨2, _⟩ => ⟨S256x2x256x128, .f32⟩
  | .hbm, ⟨3, _⟩ => ⟨S2x8416x128, .f32⟩
  | .hbm, ⟨4, _⟩ => ⟨S2x8192x128, .f32⟩
  | .hbm, ⟨5, _⟩ => ⟨S2x8416x128, .f32⟩
  | .hbm, ⟨6, _⟩ => ⟨S2x1048576, .f32⟩
  | .hbm, ⟨7, _⟩ => ⟨S1x2x1048576, .f32⟩
  | .hbm, ⟨8, _⟩ => ⟨S2x1077248, .f32⟩
  | .local _ .vmem, ⟨0, _⟩ => ⟨S64x1x256x128, .f32⟩
  | .local _ .vmem, ⟨1, _⟩ => ⟨S64x1x256x128, .f32⟩
  | .local _ .vmem, ⟨2, _⟩ => ⟨S1x8416x128, .f32⟩
  | .local _ .vmem, ⟨3, _⟩ => ⟨S1x2048x128, .f32⟩
  | .local _ .vmem, ⟨4, _⟩ => ⟨S1x2048x128, .f32⟩
  | .local _ .vmem, ⟨5, _⟩ => ⟨S1x8416x128, .f32⟩
  | _, _ => ⟨S256x2x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult1 (i : grid0.Coords) (k0_t1 : Fin k0_t1_loop.trips) : BitVec 32 :=
  let arg1 : BitVec 32 := BitVec.ofNat 32 (i 1).val
  let c64_i32_8 : BitVec 32 := 64#32
  let v15 : BitVec 32 := Scalar.muli arg1 c64_i32_8
  let c0_i32_1 : BitVec 32 := 0#32
  let c1_i32 : BitVec 32 := 1#32
  let arg6 : BitVec 32 := Scf.iv c0_i32_1 c1_i32 k0_t1
  let v16 : BitVec 32 := Scalar.addi v15 arg6
  let c32_i32 : BitVec 32 := 32#32
  let v17 : BitVec 32 := Scalar.muli v16 c32_i32
  v17
def k0_off1 (k0_t1 : Fin k0_t1_loop.trips) : Fin 4 → Nat :=
  let c0_i32_1 : BitVec 32 := 0#32
  let c1_i32 : BitVec 32 := 1#32
  let arg6 : BitVec 32 := Scf.iv c0_i32_1 c1_i32 k0_t1
  let v19 : Index := Scalar.indexCast arg6
  let c0_9 : Index := 0#32
  let c0_10 : Index := 0#32
  let c0_11 : Index := 0#32
  ![v19.toNat, 0, 0, 0]
def k0_off2 (i : grid0.Coords) (k0_t1 : Fin k0_t1_loop.trips) : Fin 3 → Nat :=
  let c0_12 : Index := 0#32
  let arg1 : BitVec 32 := BitVec.ofNat 32 (i 1).val
  let c64_i32_8 : BitVec 32 := 64#32
  let v15 : BitVec 32 := Scalar.muli arg1 c64_i32_8
  let c0_i32_1 : BitVec 32 := 0#32
  let c1_i32 : BitVec 32 := 1#32
  let arg6 : BitVec 32 := Scf.iv c0_i32_1 c1_i32 k0_t1
  let v16 : BitVec 32 := Scalar.addi v15 arg6
  let c32_i32 : BitVec 32 := 32#32
  let v17 : BitVec 32 := Scalar.muli v16 c32_i32
  let v18 : BitVec 32 := v17
  let v24 : Index := Scalar.indexCast v18
  let c0_13 : Index := 0#32
  ![0, v24.toNat, 0]
def k0_mult2 (i : grid0.Coords) : BitVec 32 :=
  let arg1 : BitVec 32 := BitVec.ofNat 32 (i 1).val
  let c2048_i32 : BitVec 32 := 2048#32
  let v4 : BitVec 32 := Scalar.muli arg1 c2048_i32
  v4
def k0_off3 (i : grid0.Coords) : Fin 3 → Nat :=
  let c0 : Index := 0#32
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  let c0_3 : Index := 0#32
  ![0, v6.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  shapeCasts_S256x2x32768_S256x2x256x128 : S256x2x32768.ShapeCasts S256x2x256x128
  shapeCasts_S2x1077248_S2x8416x128 : S2x1077248.ShapeCasts S2x8416x128
  inb_S1x8416x128_S1x8416x128_0_0_0 : ∀ a, (![0, 0, 0] : Fin 3 → Nat) a + S1x8416x128.size a ≤ S1x8416x128.size a
  h_S1x8416x128 : 0 < S1x8416x128.numel
  shapeCasts_S1x8416x128_S8416x128 : S1x8416x128.ShapeCasts S8416x128
  shapeCasts_S8416x128_S1x8416x128 : S8416x128.ShapeCasts S1x8416x128
  h_S1x1x256x128 : 0 < S1x1x256x128.numel
  shapeCasts_S1x1x256x128_S256x128 : S1x1x256x128.ShapeCasts S256x128
  h_S1x256x128 : 0 < S1x256x128.numel
  shapeCasts_S1x256x128_S256x128 : S1x256x128.ShapeCasts S256x128
  shapeCasts_S256x128_S1x256x128 : S256x128.ShapeCasts S1x256x128
  h_S1x2048x128 : 0 < S1x2048x128.numel
  shapeCasts_S1x2048x128_S2048x128 : S1x2048x128.ShapeCasts S2048x128
  inb_S1x2048x128_S1x2048x128_0_0_0 : ∀ a, (![0, 0, 0] : Fin 3 → Nat) a + S1x2048x128.size a ≤ S1x2048x128.size a
  shapeCasts_S2048x128_S1x2048x128 : S2048x128.ShapeCasts S1x2048x128
  inb_S1x8416x128_S1x224x128_0_8192_0 : ∀ a, (![0, 8192, 0] : Fin 3 → Nat) a + S1x224x128.size a ≤ S1x8416x128.size a
  h_S1x224x128 : 0 < S1x224x128.numel
  shapeCasts_S1x224x128_S224x128 : S1x224x128.ShapeCasts S224x128
  inb_S1x8416x128_S1x224x128_0_0_0 : ∀ a, (![0, 0, 0] : Fin 3 → Nat) a + S1x224x128.size a ≤ S1x8416x128.size a
  shapeCasts_S224x128_S1x224x128 : S224x128.ShapeCasts S1x224x128
  inb_S1x8416x128_S1x8192x128_0_224_0 : ∀ a, (![0, 224, 0] : Fin 3 → Nat) a + S1x8192x128.size a ≤ S1x8416x128.size a
  h_S1x8192x128 : 0 < S1x8192x128.numel
  shapeCasts_S1x8192x128_S8192x128 : S1x8192x128.ShapeCasts S8192x128
  shapeCasts_S8192x128_S1x8192x128 : S8192x128.ShapeCasts S1x8192x128
  shapeCasts_S2x8192x128_S2x1048576 : S2x8192x128.ShapeCasts S2x1048576
  bcast_S2x1048576_S1x2x1048576_1_2 : S2x1048576.BroadcastsInDim S1x2x1048576 (![1, 2] : Fin 2 → Fin S1x2x1048576.rank)
  shapeCasts_S2x8416x128_S2x1077248 : S2x8416x128.ShapeCasts S2x1077248
  hrank0 : 0 < grid0.rank
  k0_t1_ok : k0_t1_loop.OK
  k0_mult1_dvd : ∀ (i : grid0.Coords) (k0_t1 : Fin k0_t1_loop.trips), 32 ∣ (k0_mult1 i k0_t1).toNat
  k0_off1_inb : ∀ k0_t1 : Fin k0_t1_loop.trips, ∀ a, (k0_off1 k0_t1) a + S1x1x256x128.size a ≤ S64x1x256x128.size a
  k0_off2_inb : ∀ (i : grid0.Coords) (k0_t1 : Fin k0_t1_loop.trips), ∀ a, (k0_off2 i k0_t1) a + S1x256x128.size a ≤ S1x8416x128.size a
  k0_mult2_dvd : ∀ i : grid0.Coords, 2048 ∣ (k0_mult2 i).toNat
  k0_off3_inb : ∀ i : grid0.Coords, ∀ a, (k0_off3 i) a + S1x2048x128.size a ≤ S1x8416x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x256x128.size a ≤ S256x2x256x128.size a
  hwx0_0 : ∀ i : grid0.Coords, EltTy.bits .f32 = 32 ∨ (Rect.block (s := S256x2x256x128) S64x1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8416x128.size a ≤ S2x8416x128.size a
  hwx0_1 : ∀ i : grid0.Coords, EltTy.bits .f32 = 32 ∨ (Rect.block (s := S2x8416x128) S1x8416x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S2x8192x128.size a
  hwx0_2 : ∀ i : grid0.Coords, EltTy.bits .f32 = 32 ∨ (Rect.block (s := S2x8192x128) S1x2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8416x128.size a ≤ S2x8416x128.size a
  hwx0_3 : ∀ i : grid0.Coords, EltTy.bits .f32 = 32 ∨ (Rect.block (s := S2x8416x128) S1x8416x128.size (cc0_transform_3 i) (hinb0_3 i)).WholeWords (EltTy.packing .f32)

variable [Facts₀]

abbrev win0_0 : Pipeline.Window sig grid0 :=
  Pipeline.Window.ofSpec (Memref.whole main_v0) S64x1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8416x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8416x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x2x32768 : Shape := ⟨3, ![256, 2, 32768]⟩
abbrev S2x1077248 : Shape := ⟨2, ![2, 1077248]⟩
abbrev S32768 : Shape := ⟨1, ![32768]⟩
abbrev S1x32768 : Shape := ⟨2, ![1, 32768]⟩
abbrev S256 : Shape := ⟨1, ![256]⟩
abbrev S_ : Shape := ⟨0, ![]⟩
abbrev S256x1 : Shape := ⟨2, ![256, 1]⟩
abbrev S256x32768 : Shape := ⟨2, ![256, 32768]⟩
abbrev S1077248 : Shape := ⟨1, ![1077248]⟩
abbrev S8388608 : Shape := ⟨1, ![8388608]⟩
abbrev S8388608x1 : Shape := ⟨2, ![8388608, 1]⟩
abbrev S256x32768x1 : Shape := ⟨3, ![256, 32768, 1]⟩
abbrev S2x256x32768 : Shape := ⟨3, ![2, 256, 32768]⟩
abbrev S1x256x32768 : Shape := ⟨3, ![1, 256, 32768]⟩
abbrev S2x1048576 : Shape := ⟨2, ![2, 1048576]⟩
abbrev S2x28672 : Shape := ⟨2, ![2, 28672]⟩
abbrev S1x2x1048576 : Shape := ⟨3, ![1, 2, 1048576]⟩

abbrev nBuf : Space → Nat
  | .hbm => 69
  | .vmem => 0
  | .smem => 0
  | _ => 0

abbrev bufTy : (tb : Table) → Fin (tcTables nBuf tb) → BufTy
  | .hbm, ⟨0, _⟩ => ⟨S256x2x32768, .f32⟩
  | .hbm, ⟨1, _⟩ => ⟨S2x1077248, .f32⟩
  | .hbm, ⟨2, _⟩ => ⟨S32768, .i32⟩
  | .hbm, ⟨3, _⟩ => ⟨S1x32768, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256x1, .i32⟩
  | .hbm, ⟨9, _⟩ => ⟨S256x32768, .i32⟩
  | .hbm, ⟨10, _⟩ => ⟨S256x32768, .i32⟩
  | .hbm, ⟨11, _⟩ => ⟨S256x32768, .i32⟩
  | .hbm, ⟨12, _⟩ => ⟨S_, .f32⟩
  | .hbm, ⟨13, _⟩ => ⟨S1077248, .f32⟩
  | .hbm, ⟨14, _⟩ => ⟨S8388608, .i32⟩
  | .hbm, ⟨15, _⟩ => ⟨S_, .i32⟩
  | .hbm, ⟨16, _⟩ => ⟨S8388608, .i32⟩
  | .hbm, ⟨17, _⟩ => ⟨S8388608, .i1⟩
  | .hbm, ⟨18, _⟩ => ⟨S_, .i32⟩
  | .hbm, ⟨19, _⟩ => ⟨S8388608, .i32⟩
  | .hbm, ⟨20, _⟩ => ⟨S8388608, .i32⟩
  | .hbm, ⟨21, _⟩ => ⟨S8388608, .i32⟩
  | .hbm, ⟨22, _⟩ => ⟨S8388608x1, .i32⟩
  | .hbm, ⟨23, _⟩ => ⟨S_, .f32⟩
  | .hbm, ⟨24, _⟩ => ⟨S8388608, .f32⟩
  | .hbm, ⟨25, _⟩ => ⟨S1077248, .f32⟩
  | .hbm, ⟨26, _⟩ => ⟨S_, .i32⟩
  | .hbm, ⟨27, _⟩ => ⟨S256x32768, .i32⟩
  | .hbm, ⟨28, _⟩ => ⟨S256x32768, .i1⟩
  | .hbm, ⟨29, _⟩ => ⟨S_, .i32⟩
  | .hbm, ⟨30, _⟩ => ⟨S256x32768, .i32⟩
  | .hbm, ⟨31, _⟩ => ⟨S256x32768, .i32⟩
  | .hbm, ⟨32, _⟩ => ⟨S256x32768, .i32⟩
  | .hbm, ⟨33, _⟩ => ⟨S256x32768x1, .i32⟩
  | .hbm, ⟨34, _⟩ => ⟨S256x32768, .f32⟩
  | .hbm, ⟨35, _⟩ => ⟨S2x256x32768, .f32⟩
  | .hbm, ⟨36, _⟩ => ⟨S_, .f32⟩
  | .hbm, ⟨37, _⟩ => ⟨S2x256x32768, .f32⟩
  | .hbm, ⟨38, _⟩ => ⟨S2x256x32768, .f32⟩
  | .hbm, ⟨39, _⟩ => ⟨S_, .i32⟩
  | .hbm, ⟨40, _⟩ => ⟨S256x32768, .i32⟩
  | .hbm, ⟨41, _⟩ => ⟨S256x32768, .i1⟩
  | .hbm, ⟨42, _⟩ => ⟨S_, .i32⟩
  | .hbm, ⟨43, _⟩ => ⟨S256x32768, .i32⟩
  | .hbm, ⟨44, _⟩ => ⟨S256x32768, .i32⟩
  | .hbm, ⟨45, _⟩ => ⟨S256x32768, .i32⟩
  | .hbm, ⟨46, _⟩ => ⟨S256x32768x1, .i32⟩
  | .hbm, ⟨47, _⟩ => ⟨S2x256x32768, .f32⟩
  | .hbm, ⟨48, _⟩ => ⟨S1x256x32768, .f32⟩
  | .hbm, ⟨49, _⟩ => ⟨S2x256x32768, .f32⟩
  | .hbm, ⟨50, _⟩ => ⟨S2x256x32768, .f32⟩
  | .hbm, ⟨51, _⟩ => ⟨S2x256x32768, .f32⟩
  | .hbm, ⟨52, _⟩ => ⟨S_, .f32⟩
  | .hbm, ⟨53, _⟩ => ⟨S2x1077248, .f32⟩
  | .hbm, ⟨54, _⟩ => ⟨S_, .i32⟩
  | .hbm, ⟨55, _⟩ => ⟨S256x32768, .i32⟩
  | .hbm, ⟨56, _⟩ => ⟨S256x32768, .i1⟩
  | .hbm, ⟨57, _⟩ => ⟨S_, .i32⟩
  | .hbm, ⟨58, _⟩ => ⟨S256x32768, .i32⟩
  | .hbm, ⟨59, _⟩ => ⟨S256x32768, .i32⟩
  | .hbm, ⟨60, _⟩ => ⟨S256x32768, .i32⟩
  | .hbm, ⟨61, _⟩ => ⟨S256x32768x1, .i32⟩
  | .hbm, ⟨62, _⟩ => ⟨S2x1077248, .f32⟩
  | .hbm, ⟨63, _⟩ => ⟨S2x1048576, .f32⟩
  | .hbm, ⟨64, _⟩ => ⟨S2x28672, .f32⟩
  | .hbm, ⟨65, _⟩ => ⟨S_, .f32⟩
  | .hbm, ⟨66, _⟩ => ⟨S2x1048576, .f32⟩
  | .hbm, ⟨67, _⟩ => ⟨S2x1077248, .f32⟩
  | .hbm, ⟨68, _⟩ => ⟨S1x2x1048576, .f32⟩
  | _, _ => ⟨S256x2x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_c_9 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  bcast_S32768_S1x32768_1 : S32768.BroadcastsInDim S1x32768 (![1] : Fin 1 → Fin S1x32768.rank)
  bcast_S_S256 : S_.BroadcastsInDim S256 (![] : Fin 0 → Fin S256.rank)
  bcast_S256_S256x1_0 : S256.BroadcastsInDim S256x1 (![0] : Fin 1 → Fin S256x1.rank)
  bcast_S1x32768_S256x32768_0_1 : S1x32768.BroadcastsInDim S256x32768 (![0, 1] : Fin 2 → Fin S256x32768.rank)
  bcast_S256x1_S256x32768_0_1 : S256x1.BroadcastsInDim S256x32768 (![0, 1] : Fin 2 → Fin S256x32768.rank)
  bcast_S_S1077248 : S_.BroadcastsInDim S1077248 (![] : Fin 0 → Fin S1077248.rank)
  shapeCasts_S256x32768_S8388608 : S256x32768.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S256x32768 : S_.BroadcastsInDim S256x32768 (![] : Fin 0 → Fin S256x32768.rank)
  bcast_S256x32768_S256x32768x1_0_1 : S256x32768.BroadcastsInDim S256x32768x1 (![0, 1] : Fin 2 → Fin S256x32768x1.rank)
  transposes_S256x2x32768_S2x256x32768_1_0_2 : S256x2x32768.Transposes [1, 0, 2] S2x256x32768
  bcast_S_S2x256x32768 : S_.BroadcastsInDim S2x256x32768 (![] : Fin 0 → Fin S2x256x32768.rank)
  bcast_S256x32768_S1x256x32768_1_2 : S256x32768.BroadcastsInDim S1x256x32768 (![1, 2] : Fin 2 → Fin S1x256x32768.rank)
  bcast_S1x256x32768_S2x256x32768_0_1_2 : S1x256x32768.BroadcastsInDim S2x256x32768 (![0, 1, 2] : Fin 3 → Fin S2x256x32768.rank)
  bcast_S_S2x1077248 : S_.BroadcastsInDim S2x1077248 (![] : Fin 0 → Fin S2x1077248.rank)
  slices_S2x1077248_S2x1048576_0_0 : S2x1077248.Slices ![0, 0] S2x1048576
  slices_S2x1077248_S2x28672_0_1048576 : S2x1077248.Slices ![0, 1048576] S2x28672
  bcast_S_S2x1048576 : S_.BroadcastsInDim S2x1048576 (![] : Fin 0 → Fin S2x1048576.rank)
  concatenates_S2x28672_S2x1048576_S2x1077248_d1 : Shape.Concatenates [S2x28672, S2x1048576] S2x1077248 1
  bcast_S2x1048576_S1x2x1048576_1_2 : S2x1048576.BroadcastsInDim S1x2x1048576 (![1, 2] : Fin 2 → Fin S1x2x1048576.rank)
  scatter_S1077248_S8388608x1_S8388608_n_0_0_1_wf : ScatterDims.WF S1077248 S8388608x1 S8388608 [] [0] [0] 1
  gather_S1077248_S256x32768x1_S256x32768_n_0_n_n_0_2_1_wf : GatherDims.WF S1077248 S256x32768x1 S256x32768 [] [0] [] [0] [] 2 ![1]
  gather_S2x1077248_S256x32768x1_S2x256x32768_0_1_n_n_1_2_21_wf : GatherDims.WF S2x1077248 S256x32768x1 S2x256x32768 [0] [1] [] [1] [] 2 ![2, 1]
  scatter_S2x1077248_S256x32768x1_S2x256x32768_0_1_1_2_wf : ScatterDims.WF S2x1077248 S256x32768x1 S2x256x32768 [0] [1] [1] 2

variable [Facts₀]

def scatter_S1077248_S8388608x1_S8388608_n_0_0_1 : ScatterDims S1077248 S8388608x1 S8388608 where
  updateWindowDims := []
  insertedWindowDims := [0]
  scatterDimsToOperandDims := [0]
  indexVectorDim := 1
  wf := scatter_S1077248_S8388608x1_S8388608_n_0_0_1_wf
def gather_S1077248_S256x32768x1_S256x32768_n_0_n_n_0_2_1 : GatherDims S1077248 S256x32768x1 S256x32768 where
  offsetDims := []
  collapsedSliceDims := [0]
  operandBatchingDims := []
  startIndicesBatchingDims := []
  startIndexMap := [0]
  indexVectorDim := 2
  sliceSizes := ![1]
  wf := gather_S1077248_S256x32768x1_S256x32768_n_0_n_n_0_2_1_wf
def gather_S2x1077248_S256x32768x1_S2x256x32768_0_1_n_n_1_2_21 : GatherDims S2x1077248 S256x32768x1 S2x256x32768 where
  offsetDims := [0]
  collapsedSliceDims := [1]
  operandBatchingDims := []
  startIndicesBatchingDims := []
  startIndexMap := [1]
  indexVectorDim := 2
  sliceSizes := ![2, 1]
  wf := gather_S2x1077248_S256x32768x1_S2x256x32768_0_1_n_n_1_2_21_wf
def scatter_S2x1077248_S256x32768x1_S2x256x32768_0_1_1_2 : ScatterDims S2x1077248 S256x32768x1 S2x256x32768 where
  updateWindowDims := [0]
  insertedWindowDims := [1]
  scatterDimsToOperandDims := [1]
  indexVectorDim := 2
  wf := scatter_S2x1077248_S256x32768x1_S2x256x32768_0_1_1_2_wf

class Facts : Prop extends Facts₀ where

variable [Facts]
-- ==== Proof.Spec.lean ====
/-
  The overlap-add of 256 windows onto a ring buffer, as one function of the two argument arrays.

  Positions of a channel's buffer run over 0 … 1077247. Window b (b = 0 … 255) holds 32768 samples and sits at the
  positions 4096·b … 4096·b + 32767, so consecutive windows overlap and every position is covered by at least one
  window (position p by window min (p / 4096) 255). The accumulated buffer at position p of channel c is the
  snapshot there plus one eighth of every window sample lying over p. The first result is the first 1048576
  positions of the accumulated buffer (under a leading axis of extent one); the second result is the remaining
  28672 positions moved to the front, followed by zeros.
-/
import Idealize.ShloMosaic.PureOps.Ideal
import Idealize.ShloMosaic.Lib.ValueIdx

noncomputable section

open scoped BigOperators

namespace Cert.OverlapAdd

open Idealize.ShloMosaic Idealize.ShloMosaic.ValueIdx

/-- The update array's shape: window, channel, sample. -/
abbrev SUpd : Shape := ⟨3, ![256, 2, 32768]⟩
/-- The snapshot's shape: channel, position. -/
abbrev SSnap : Shape := ⟨2, ![2, 1077248]⟩
/-- The first result's shape. -/
abbrev SOut : Shape := ⟨3, ![1, 2, 1048576]⟩

/-- The factor one eighth, as the word both programs' texts carry for it. -/
abbrev eighth : EReal := Ideal.ofBits .f32 0x3E000000#32

/-- Window `b` lies over position `p`. -/
def Covers (b p : Nat) : Prop := b * 4096 ≤ p ∧ p < b * 4096 + 32768

instance (b p : Nat) : Decidable (Covers b p) := by unfold Covers; infer_instance

/-- The sample of window `b` that lies over position `p` (meaningful when `Covers b p`). -/
def off (b : Fin 256) (p : Fin 1077248) : Fin 32768 := ⟨(p.val - b.val * 4096) % 32768, Nat.mod_lt _ (by decide)⟩

/-- The (window, sample) pairs that lie at position `p`: those with `4096·b + t = p`. -/
def hits (p : Nat) : Finset (Fin 256 × Fin 32768) := Finset.univ.filter (fun bt => bt.1.val * 4096 + bt.2.val = p)

/-- The accumulated buffer at channel `c`, position `p`: the snapshot plus an eighth of every window sample over `p`. -/
def accum (upd : SUpd.Idx → EReal) (snap : SSnap.Idx → EReal) (c : Fin 2) (p : Fin 1077248) : EReal :=
  snap (ix2 c p) + ∑ b : Fin 256, if Covers b.val p.val then upd (ix3 b c (off b p)) * eighth else 0

/-- The first result: the accumulated buffer's first 1048576 positions. -/
def outSpec (upd : SUpd.Idx → EReal) (snap : SSnap.Idx → EReal) : SOut.Idx → EReal :=
  fun i => accum upd snap (i 1) (Fin.castLE (by decide) (i 2))

/-- The second result: the accumulated buffer's last 28672 positions moved to the front, zeros behind them. -/
def snapSpec (upd : SUpd.Idx → EReal) (snap : SSnap.Idx → EReal) : SSnap.Idx → EReal :=
  fun i => if h : (i 1).val < 28672 then accum upd snap (i 0) ⟨(i 1).val + 1048576, by omega⟩
    else Ideal.ofBits .f32 0x00000000#32

end Cert.OverlapAdd

end
-- ==== Proof.KTrip.lean ====
/-
  One trip of the kernel's loop, read as a function on arrays.

  At grid point t (channel t / 4, batch tile t % 4) trip k handles window b = 64·(t % 4) + k: it adds one eighth of the
  window's 256 rows (row k of the staged update block) to rows 32·b … 32·b + 255 of the accumulator and leaves every
  other row as it was.
-/
import proofs.«129674_j62680752718461_2_alg».proof.Proof.Gen.KernelIdeal.Loops
import proofs.«129674_j62680752718461_2_alg».proof.Proof.Spec
import Idealize.ShloMosaic.Lib.WritesUnit
import Idealize.ShloMosaic.Lib.ValueLayout
import Idealize.ShloMosaic.Lib.ValueIdx
import Idealize.ShloMosaic.Lib.Pipeline.Value

noncomputable section

open scoped BigOperators

namespace Cert.KernelIdeal.Val

open Cert.KernelIdeal Cert.KernelIdeal.Gen Cert.OverlapAdd
open Idealize.ShloMosaic Idealize.ShloMosaic.TcCoe Idealize.ShloMosaic.ValueIdx Idealize.SL.Sem

/-- The loop makes 64 trips. -/
theorem trips_eq : k0_t1_loop.trips = 64 := by decide

/-- The row at which trip k of point t starts: 32 times the window's number. -/
def rowOf (t k : Nat) : Nat := ((t % 4) * 64 + k) * 32

/-- The accumulator's offsets of trip k at point t, in closed form. -/
theorem off2_eq : ∀ (t : Fin grid0.N) (k : Fin k0_t1_loop.trips), k0_off2 (grid0.coords t) k = ![0, rowOf t.val k.val, 0] := by
  unfold rowOf
  decide +kernel

/-- The update block's offsets of trip k: row k of the block. -/
theorem off1_eq : ∀ k : Fin k0_t1_loop.trips, k0_off1 k = ![k.val, 0, 0, 0] := by
  decide +kernel

/-- The offsets of the rows a point streams out: 2048 rows from row 2048·(t % 4). -/
theorem off3_eq : ∀ t : Fin grid0.N, k0_off3 (grid0.coords t) = ![0, (t.val % 4) * 2048, 0] := by
  decide +kernel

/-- The index (k, 0, r, l) of the staged update block, from natural numbers reduced into range. -/
def blkIdx (k r : Nat) (l : Fin 128) : S64x1x256x128.Idx :=
  ix4 (⟨k % 64, Nat.mod_lt _ (by decide)⟩ : Fin 64) (0 : Fin 1) (⟨r % 256, Nat.mod_lt _ (by decide)⟩ : Fin 256) l

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A load through a unit-stride rectangle reads the contents at the offsets plus the position in the rectangle. -/
theorem ld_unit_apply {Val : EltTy → Type} {S : Shape} {e : EltTy} (X : S.Idx → Val e) {off off' size : Fin S.rank → ℕ}
    (inb : ∀ a, off a + size a ≤ S.size a) (x : (Rect.unit off size inb).shape.Idx) (y : S.Idx) (heq : off = off')
    (hx : ∀ a, (y a).val = off' a + (x a).val) : View.ld X (Rect.unit off size inb) x = X y := by
  subst heq
  have hy : (Rect.unit off size inb).emb x = y := funext fun a => Fin.ext (by
    show off a + 1 * (x a).val = (y a).val
    rw [hx a, Nat.one_mul])
  exact congrArg X hy

/-- The trip's stored value at (u, r, l): the accumulator's row plus an eighth of the window's row. -/
theorem pay2_apply (v20 : Vec Ideal S1x1x256x128 .f32) (v25 : Vec Ideal S1x256x128 .f32) (u : Fin 1) (r : Fin 256) (l : Fin 128) :
    k0_pay2 (F := Ideal) v20 v25 (ix3 u r l) = v25 (ix3 (0 : Fin 1) r l) + v20 (ix4 (0 : Fin 1) (0 : Fin 1) r l) * eighth := by
  unfold k0_pay2
  refine (shapeCast_ab_1ab_apply _ _ u r l).trans ?_
  rw [addf_apply, mulf_apply, shapeCast_1ab_ab_apply, shapeCast_11ab_ab_apply]
  rfl

/-- ONE TRIP, READ: after trip k at point t the accumulator holds, in rows rowOf t k … rowOf t k + 255, what it held
    plus an eighth of row k of the staged update block, and elsewhere what it held. -/
theorem trip_read (𝒱 : Variants) (c : Dev nD) (bd : Option 𝒱.V) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (X : BufTy.Contents (Elt Ideal) arg2.view.ty) (k : Fin k0_t1_loop.trips) (f : BufTy.Contents (Elt Ideal) arg5.view.ty)
    (u : Fin 1) (r : Fin 8416) (l : Fin 128) :
    arg5.view.read (Elt Ideal) (arg5.view.writes (Elt Ideal) f
        (tripL_k0_t1 (F := Ideal) 𝒱 c bd (grid0.coords t) arg2 harg2 arg3 harg3 arg4 harg4 arg5 harg5 X k f)) (ix3 u r l)
      = if rowOf t.val k.val ≤ r.val ∧ r.val < rowOf t.val k.val + 256 then
          arg5.view.read (Elt Ideal) f (ix3 u r l)
            + arg2.view.read (Elt Ideal) X (blkIdx k.val (r.val - rowOf t.val k.val) l) * eighth
        else arg5.view.read (Elt Ideal) f (ix3 u r l) := by
  have hoff := off2_eq t k
  have hoff1 := off1_eq k
  have hk : k.val < 64 := lt_of_lt_of_eq k.isLt trips_eq
  have hu : u.val = 0 := by omega
  unfold tripL_k0_t1 trip_k0_t1
  dsimp only
  split_ifs with h
  · have hr : r.val - rowOf t.val k.val < 256 := by omega
    refine (View.read_writes_cons_unit_of_mem arg5.view f _ _ [] (ix3 u r l)
      (ix3 (0 : Fin 1) (⟨r.val - rowOf t.val k.val, hr⟩ : Fin 256) l) hoff ?_).trans ?_
    · intro a
      match a with
      | ⟨0, _⟩ => show u.val = 0 + 0; omega
      | ⟨1, _⟩ => show r.val = rowOf t.val k.val + (r.val - rowOf t.val k.val); omega
      | ⟨2, _⟩ => show l.val = 0 + l.val; omega
    · rw [pay2_apply, View.readAt_eq_ld, View.readAt_eq_ld]
      congr 1
      · refine ld_unit_apply _ _ _ _ hoff ?_
        intro a
        match a with
        | ⟨0, _⟩ => show u.val = 0 + 0; omega
        | ⟨1, _⟩ => show r.val = rowOf t.val k.val + (r.val - rowOf t.val k.val); omega
        | ⟨2, _⟩ => show l.val = 0 + l.val; omega
      · congr 1
        refine ld_unit_apply _ _ _ _ hoff1 ?_
        intro a
        match a with
        | ⟨0, _⟩ => show k.val % 64 = k.val + 0; omega
        | ⟨1, _⟩ => show 0 = 0 + 0; rfl
        | ⟨2, _⟩ => show (r.val - rowOf t.val k.val) % 256 = 0 + (r.val - rowOf t.val k.val); omega
        | ⟨3, _⟩ => show l.val = 0 + l.val; omega
  · refine (View.read_writes_cons_unit_of_not_mem arg5.view f _ _ [] (ix3 u r l) hoff (1 : Fin 3) ?_).trans rfl
    show r.val < rowOf t.val k.val ∨ rowOf t.val k.val + 256 ≤ r.val
    omega

end Cert.KernelIdeal.Val

end
-- ==== Proof.KLoop.lean ====
/-
  The kernel's loop, read as a function on arrays: after the first n trips at point t every accumulator row r holds what
  it held at loop entry plus an eighth of the rows of the windows 64·(t % 4) … 64·(t % 4) + n − 1 lying over r.
-/
import proofs.«129674_j62680752718461_2_alg».proof.Proof.KTrip

noncomputable section

open scoped BigOperators

namespace Cert.KernelIdeal.Val

open Cert.KernelIdeal Cert.KernelIdeal.Gen Cert.OverlapAdd
open Idealize.ShloMosaic Idealize.ShloMosaic.TcCoe Idealize.ShloMosaic.ValueIdx Idealize.SL.Sem

/-- What the first `n` trips of point `t` add at row `r`, lane `l`, of the staged update block `x0`. -/
def tripSum (t : Nat) (x0 : S64x1x256x128.Idx → EReal) (n r : Nat) (l : Fin 128) : EReal :=
  ∑ k ∈ Finset.range n, if rowOf t k ≤ r ∧ r < rowOf t k + 256 then x0 (blkIdx k (r - rowOf t k) l) * eighth else 0

theorem tripSum_succ (t : Nat) (x0 : S64x1x256x128.Idx → EReal) (n r : Nat) (l : Fin 128) :
    tripSum t x0 (n + 1) r l = tripSum t x0 n r l
      + (if rowOf t n ≤ r ∧ r < rowOf t n + 256 then x0 (blkIdx n (r - rowOf t n) l) * eighth else 0) :=
  Finset.sum_range_succ _ n

/-- THE LOOP, READ: by induction on the trips, each read by `trip_read` over what the earlier ones left. -/
theorem loop_read (𝒱 : Variants) (c : Dev nD) (bd : Option 𝒱.V) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (X : BufTy.Contents (Elt Ideal) arg2.view.ty) (G : BufTy.Contents (Elt Ideal) arg5.view.ty)
    (u : Fin 1) (r : Fin 8416) (l : Fin 128) : ∀ n : Nat, n ≤ 64 →
    arg5.view.read (Elt Ideal) (arg5.view.writes (Elt Ideal) G
        (pb_k0_t1 (F := Ideal) 𝒱 c bd (grid0.coords t) arg2 harg2 arg3 harg3 arg4 harg4 arg5 harg5 X G n)) (ix3 u r l)
      = arg5.view.read (Elt Ideal) G (ix3 u r l) + tripSum t.val (arg2.view.read (Elt Ideal) X) n r.val l
  | 0, _ => by
    show arg5.view.read (Elt Ideal) G (ix3 u r l) = _ + tripSum t.val _ 0 r.val l
    unfold tripSum
    rw [Finset.sum_range_zero, add_zero]
  | n + 1, hn => by
    have hk : n < k0_t1_loop.trips := by rw [trips_eq]; omega
    have e : pb_k0_t1 (F := Ideal) 𝒱 c bd (grid0.coords t) arg2 harg2 arg3 harg3 arg4 harg4 arg5 harg5 X G (n + 1)
        = tripL_k0_t1 (F := Ideal) 𝒱 c bd (grid0.coords t) arg2 harg2 arg3 harg3 arg4 harg4 arg5 harg5 X ⟨n, hk⟩
            (arg5.view.writes (Elt Ideal) G (pb_k0_t1 (F := Ideal) 𝒱 c bd (grid0.coords t) arg2 harg2 arg3 harg3 arg4 harg4 arg5 harg5 X G n))
          ++ pb_k0_t1 (F := Ideal) 𝒱 c bd (grid0.coords t) arg2 harg2 arg3 harg3 arg4 harg4 arg5 harg5 X G n :=
      pb_k0_t1_succ 𝒱 c bd (grid0.coords t) arg2 harg2 arg3 harg3 arg4 harg4 arg5 harg5 X G ⟨n, hk⟩
    rw [e, View.writes_append, trip_read, loop_read 𝒱 c bd t arg2 harg2 arg3 harg3 arg4 harg4 arg5 harg5 X G u r l n (by omega),
      tripSum_succ]
    show (if rowOf t.val n ≤ r.val ∧ r.val < rowOf t.val n + 256 then _ else _) = _
    split_ifs with h
    · rw [add_assoc]
    · rw [add_zero]

end Cert.KernelIdeal.Val

end
-- ==== Proof.KCases.lean ====
/-
  What one grid point leaves, read as functions on arrays, in the two cases that do not end a channel.

  A point whose batch tile is not the last one adds its 64 windows to the accumulator — at a channel's first point
  (case A) over the channel's snapshot block, which the body first copies into the accumulator; otherwise (case B) over
  what the point before left — and then streams out rows 2048·(t % 4) … 2048·(t % 4) + 2047 of the accumulator.
-/
import proofs.«129674_j62680752718461_2_alg».proof.Proof.Gen.KernelIdeal.Frame.RunB
import proofs.«129674_j62680752718461_2_alg».proof.Proof.KLoop
import Idealize.ShloMosaic.Lib.Tactic

set_option maxRecDepth 16384

noncomputable section

open scoped BigOperators

namespace Cert.KernelIdeal.Val

open Cert.KernelIdeal Cert.KernelIdeal.Gen Cert.OverlapAdd
open Idealize.ShloMosaic Idealize.ShloMosaic.TcCoe Idealize.ShloMosaic.ValueIdx Idealize.SL.Sem Idealize.ShloMosaic.Tactic

theorem hz3 : (![0, 0, 0] : Fin 3 → Nat) = fun _ => 0 := funext fun a => by fin_cases a <;> rfl

/-- The loop run to its end (the trip count spelt in any way that is 64). -/
theorem loop_read64 (𝒱 : Variants) (c : Dev nD) (bd : Option 𝒱.V) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (X : BufTy.Contents (Elt Ideal) arg2.view.ty) (G : BufTy.Contents (Elt Ideal) arg5.view.ty)
    (u : Fin 1) (r : Fin 8416) (l : Fin 128) (n : Nat) (hn : n = 64) :
    arg5.view.read (Elt Ideal) (arg5.view.writes (Elt Ideal) G
        (pb_k0_t1 (F := Ideal) 𝒱 c bd (grid0.coords t) arg2 harg2 arg3 harg3 arg4 harg4 arg5 harg5 X G n)) (ix3 u r l)
      = arg5.view.read (Elt Ideal) G (ix3 u r l) + tripSum t.val (arg2.view.read (Elt Ideal) X) 64 r.val l := by
  subst hn
  exact loop_read 𝒱 c bd t arg2 harg2 arg3 harg3 arg4 harg4 arg5 harg5 X G u r l 64 le_rfl

/-- CASE B, the accumulator: what the point before left plus the point's 64 windows. -/
theorem caseB_acc (c : Dev nD) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (hc0 : ¬cond0_0 (grid0.coords t)) (hc1 : ¬cond0_1 (grid0.coords t))
    (x0 : Vec Ideal S64x1x256x128 .f32) (x1 xo3 : Vec Ideal S1x8416x128 .f32) (u : Fin 1) (r : Fin 8416) (l : Fin 128) :
    arg5.view.read (Elt Ideal) (arg5.view.writes (Elt Ideal) (harg5.unread xo3)
        (kernelRun0_B (F := Ideal) c (grid0.coords t) arg2 harg2 arg3 harg3 arg4 harg4 arg5 harg5 hc0 hc1 x0 x1 xo3).2.1) (ix3 u r l)
      = xo3 (ix3 u r l) + tripSum t.val x0 64 r.val l := by
  unfold kernelRun0_B
  dsimp only
  refine (loop_read64 _ c _ t arg2 harg2 arg3 harg3 arg4 harg4 arg5 harg5 _ _ u r l _ (by decide)).trans ?_
  rw [harg5.read_unread, harg2.read_unread]

/-- CASE B, the rows streamed out: rows 2048·(t % 4) … of that accumulator. -/
theorem caseB_out (c : Dev nD) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (hc0 : ¬cond0_0 (grid0.coords t)) (hc1 : ¬cond0_1 (grid0.coords t))
    (x0 : Vec Ideal S64x1x256x128 .f32) (x1 xo3 : Vec Ideal S1x8416x128 .f32) (u : Fin 1) (r' : Fin 2048) (l : Fin 128)
    (r : Fin 8416) (hr : r.val = (t.val % 4) * 2048 + r'.val) :
    VO0_2.read (Elt Ideal) (VO0_2.writes (Elt Ideal) VO0_2.junk
        (kernelRun0_B (F := Ideal) c (grid0.coords t) arg2 harg2 arg3 harg3 arg4 harg4 arg5 harg5 hc0 hc1 x0 x1 xo3).1) (ix3 u r' l)
      = xo3 (ix3 u r l) + tripSum t.val x0 64 r.val l := by
  have hoff := off3_eq t
  unfold kernelRun0_B
  dsimp only
  refine (View.read_writes_cons_unit_of_mem VO0_2 _ _ _ [] (ix3 u r' l) (ix3 u r' l) rfl ?_).trans ?_
  · intro a
    match a with
    | ⟨0, _⟩ => show u.val = 0 + u.val; omega
    | ⟨1, _⟩ => show r'.val = 0 + r'.val; omega
    | ⟨2, _⟩ => show l.val = 0 + l.val; omega
  · simp only [k0_pay3, shapeCast_shapeCast]
    rw [View.readAt_eq_ld]
    refine (ld_unit_apply _ _ (ix3 u r' l) (ix3 u r l) hoff ?_).trans ?_
    · intro a
      match a with
      | ⟨0, _⟩ => show u.val = 0 + u.val; omega
      | ⟨1, _⟩ => show r.val = (t.val % 4) * 2048 + r'.val; omega
      | ⟨2, _⟩ => show l.val = 0 + l.val; omega
    · refine (loop_read64 _ c _ t arg2 harg2 arg3 harg3 arg4 harg4 arg5 harg5 _ _ u r l _ (by decide)).trans ?_
      rw [harg5.read_unread, harg2.read_unread]

/-- The snapshot block copied into the accumulator at a channel's first point reads the block. -/
theorem copy_read (arg3 : Memref sig .tc .vmem S1x8416x128 .f32) (harg3 : arg3.IsWhole)
    (arg5 : Memref sig .tc .vmem S1x8416x128 .f32) (x1 : Vec Ideal S1x8416x128 .f32) (u : Fin 1) (r : Fin 8416) (l : Fin 128) :
    arg5.view.read (Elt Ideal) (arg5.view.writes (Elt Ideal) arg5.view.junk
        [⟨Rect.unit ![0, 0, 0] S1x8416x128.size inb_S1x8416x128_S1x8416x128_0_0_0,
          k0_pay1 (F := Ideal) (View.readAt (Elt Ideal) arg3.view
            (Rect.unit ![0, 0, 0] S1x8416x128.size inb_S1x8416x128_S1x8416x128_0_0_0).toLoadRect (harg3.unread x1))⟩]) (ix3 u r l)
      = x1 (ix3 u r l) := by
  refine (View.read_writes_cons_unit_of_mem arg5.view _ _ _ [] (ix3 u r l) (ix3 u r l) rfl ?_).trans ?_
  · intro a
    match a with
    | ⟨0, _⟩ => show u.val = 0 + u.val; omega
    | ⟨1, _⟩ => show r.val = 0 + r.val; omega
    | ⟨2, _⟩ => show l.val = 0 + l.val; omega
  · simp only [k0_pay1, shapeCast_shapeCast]
    rw [View.readAt_eq_ld, View.ld_unit_zero hz3, harg3.read_unread]

/-- A list of stores whose first (oldest) one fills the whole block reads the same through any view, over any prior contents. -/
theorem read_whole_first {sig' : RefSig} {κ' : Kind} {sp' : Space} (v : View sig .tc .vmem S1x8416x128 .f32) (v' : View sig' κ' sp' S1x8416x128 .f32)
    (f : v.ty.Contents (Elt Ideal)) (f' : v'.ty.Contents (Elt Ideal))
    (L : List (View.Piece (Elt Ideal) S1x8416x128 .f32)) (w : S1x8416x128.Idx → EReal) (y : S1x8416x128.Idx) :
    v.read (Elt Ideal) (v.writes (Elt Ideal) f (L ++ [⟨Rect.unit ![0, 0, 0] S1x8416x128.size inb_S1x8416x128_S1x8416x128_0_0_0, w⟩])) y
      = v'.read (Elt Ideal) (v'.writes (Elt Ideal) f' (L ++ [⟨Rect.unit ![0, 0, 0] S1x8416x128.size inb_S1x8416x128_S1x8416x128_0_0_0, w⟩])) y :=
  View.read_writes_apply_eq v f v' f' y _
    ⟨(⟨Rect.unit ![0, 0, 0] S1x8416x128.size inb_S1x8416x128_S1x8416x128_0_0_0, w⟩ : View.Piece (Elt Ideal) S1x8416x128 .f32),
      List.mem_append_right _ (List.mem_singleton_self _),
      View.mem_set_unit_zero hz3 inb_S1x8416x128_S1x8416x128_0_0_0 y⟩

/-- CASE A, the accumulator: the channel's snapshot block plus the point's 64 windows. -/
theorem caseA_acc (c : Dev nD) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (hc0 : cond0_0 (grid0.coords t)) (hc1 : ¬cond0_1 (grid0.coords t))
    (x0 : Vec Ideal S64x1x256x128 .f32) (x1 : Vec Ideal S1x8416x128 .f32) (u : Fin 1) (r : Fin 8416) (l : Fin 128) :
    VO0_3.read (Elt Ideal) (VO0_3.writes (Elt Ideal) VO0_3.junk
        (kernelRun0_A (F := Ideal) c (grid0.coords t) arg2 harg2 arg3 harg3 arg4 harg4 arg5 harg5 hc0 hc1 x0 x1).2.1) (ix3 u r l)
      = x1 (ix3 u r l) + tripSum t.val x0 64 r.val l := by
  unfold kernelRun0_A
  dsimp only
  sl_unfold_run_names
  refine (read_whole_first VO0_3 arg5.view _ arg5.view.junk _ _ (ix3 u r l)).trans ?_
  rw [View.writes_append]
  refine (loop_read64 _ c _ t arg2 harg2 arg3 harg3 arg4 harg4 arg5 harg5 _ _ u r l _ (by decide)).trans ?_
  rw [copy_read, harg2.read_unread]

/-- CASE A, the rows streamed out. -/
theorem caseA_out (c : Dev nD) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (hc0 : cond0_0 (grid0.coords t)) (hc1 : ¬cond0_1 (grid0.coords t))
    (x0 : Vec Ideal S64x1x256x128 .f32) (x1 : Vec Ideal S1x8416x128 .f32) (u : Fin 1) (r' : Fin 2048) (l : Fin 128)
    (r : Fin 8416) (hr : r.val = (t.val % 4) * 2048 + r'.val) :
    VO0_2.read (Elt Ideal) (VO0_2.writes (Elt Ideal) VO0_2.junk
        (kernelRun0_A (F := Ideal) c (grid0.coords t) arg2 harg2 arg3 harg3 arg4 harg4 arg5 harg5 hc0 hc1 x0 x1).1) (ix3 u r' l)
      = x1 (ix3 u r l) + tripSum t.val x0 64 r.val l := by
  have hoff := off3_eq t
  unfold kernelRun0_A
  dsimp only
  sl_unfold_run_names
  refine (View.read_writes_cons_unit_of_mem VO0_2 _ _ _ [] (ix3 u r' l) (ix3 u r' l) rfl ?_).trans ?_
  · intro a
    match a with
    | ⟨0, _⟩ => show u.val = 0 + u.val; omega
    | ⟨1, _⟩ => show r'.val = 0 + r'.val; omega
    | ⟨2, _⟩ => show l.val = 0 + l.val; omega
  · simp only [k0_pay3, shapeCast_shapeCast]
    rw [View.readAt_eq_ld]
    refine (ld_unit_apply _ _ (ix3 u r' l) (ix3 u r l) hoff ?_).trans ?_
    · intro a
      match a with
      | ⟨0, _⟩ => show u.val = 0 + u.val; omega
      | ⟨1, _⟩ => show r.val = (t.val % 4) * 2048 + r'.val; omega
      | ⟨2, _⟩ => show l.val = 0 + l.val; omega
    · rw [View.writes_append]
      refine (loop_read64 _ c _ t arg2 harg2 arg3 harg3 arg4 harg4 arg5 harg5 _ _ u r l _ (by decide)).trans ?_
      rw [copy_read, harg2.read_unread]

end Cert.KernelIdeal.Val

end
-- ==== Proof.KCaseC.lean ====
/-
  What a channel's last grid point leaves, read as functions on arrays (case C).

  The last batch tile adds its 64 windows like the others and streams out its 2048 rows; then it moves the accumulator's
  last 224 rows (8192 … 8415) to the front and fills the rows behind them with zeros.
-/
import proofs.«129674_j62680752718461_2_alg».proof.Proof.KernelIdealRunC
import proofs.«129674_j62680752718461_2_alg».proof.Proof.KCases

set_option maxRecDepth 16384

noncomputable section

open scoped BigOperators

namespace Cert.KernelIdeal.Val

open Cert.KernelIdeal Cert.KernelIdeal.Gen Cert.KernelIdeal.GenP Cert.OverlapAdd
open Idealize.ShloMosaic Idealize.ShloMosaic.TcCoe Idealize.ShloMosaic.ValueIdx Idealize.SL.Sem Idealize.ShloMosaic.Tactic

/-- The zero fill reads zero. -/
theorem pay5_apply (x : S1x8192x128.Idx) : k0_pay5 (F := Ideal) x = Ideal.ofBits .f32 0x00000000#32 := rfl

/-- CASE C, the accumulator: its rows 8192 … 8415 (the point before's plus the point's 64 windows) moved to rows 0 … 223,
    zeros behind. -/
theorem caseC_acc (c : Dev nD) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (hc0 : ¬cond0_0 (grid0.coords t)) (hc1 : cond0_1 (grid0.coords t))
    (x0 : Vec Ideal S64x1x256x128 .f32) (x1 xo3 : Vec Ideal S1x8416x128 .f32) (u : Fin 1) (r : Fin 8416) (l : Fin 128) :
    arg5.view.read (Elt Ideal) (arg5.view.writes (Elt Ideal) (harg5.unread xo3)
        (kernelRun0_C (F := Ideal) c (grid0.coords t) arg2 harg2 arg3 harg3 arg4 harg4 arg5 harg5 hc0 hc1 x0 x1 xo3).2.1) (ix3 u r l)
      = if h : r.val < 224 then
          xo3 (ix3 u (⟨r.val + 8192, by omega⟩ : Fin 8416) l) + tripSum t.val x0 64 (r.val + 8192) l
        else Ideal.ofBits .f32 0x00000000#32 := by
  unfold kernelRun0_C
  dsimp only
  split_ifs with h
  · refine (View.read_writes_cons_unit_of_not_mem arg5.view _ _ _ _ (ix3 u r l) rfl (1 : Fin 3) (Or.inl ?_)).trans ?_
    · show r.val < 224; exact h
    refine (View.read_writes_cons_unit_of_mem arg5.view _ _ _ _ (ix3 u r l) (ix3 u (⟨r.val, h⟩ : Fin 224) l) rfl ?_).trans ?_
    · intro a
      match a with
      | ⟨0, _⟩ => show u.val = 0 + u.val; omega
      | ⟨1, _⟩ => show r.val = 0 + r.val; omega
      | ⟨2, _⟩ => show l.val = 0 + l.val; omega
    · simp only [k0_pay4, shapeCast_shapeCast]
      sl_unfold_run_names
      rw [View.readAt_eq_ld]
      refine (ld_unit_apply _ _ (ix3 u (⟨r.val, h⟩ : Fin 224) l) (ix3 u (⟨r.val + 8192, by omega⟩ : Fin 8416) l) rfl ?_).trans ?_
      · intro a
        match a with
        | ⟨0, _⟩ => show u.val = 0 + u.val; omega
        | ⟨1, _⟩ => show r.val + 8192 = 8192 + r.val; omega
        | ⟨2, _⟩ => show l.val = 0 + l.val; omega
      · refine (loop_read64 _ c _ t arg2 harg2 arg3 harg3 arg4 harg4 arg5 harg5 _ _ u _ l _ (by decide)).trans ?_
        rw [harg5.read_unread, harg2.read_unread]
  · have hr : r.val - 224 < 8192 := by omega
    refine (View.read_writes_cons_unit_of_mem arg5.view _ _ _ _ (ix3 u r l) (ix3 u (⟨r.val - 224, hr⟩ : Fin 8192) l) rfl ?_).trans ?_
    · intro a
      match a with
      | ⟨0, _⟩ => show u.val = 0 + u.val; omega
      | ⟨1, _⟩ => show r.val = 224 + (r.val - 224); omega
      | ⟨2, _⟩ => show l.val = 0 + l.val; omega
    · rfl

/-- CASE C, the rows streamed out: rows 2048·(t % 4) … of the accumulator BEFORE the move. -/
theorem caseC_out (c : Dev nD) (t : Fin grid0.N)
    (arg2 : Memref sig .tc .vmem S64x1x256x128 .f32) (harg2 : arg2.IsWhole) (arg3 : Memref sig .tc .vmem S1x8416x128 .f32) (harg3 : arg3.IsWhole)
    (arg4 : Memref sig .tc .vmem S1x2048x128 .f32) (harg4 : arg4.IsWhole) (arg5 : Memref sig .tc .vmem S1x8416x128 .f32) (harg5 : arg5.IsWhole)
    (hc0 : ¬cond0_0 (grid0.coords t)) (hc1 : cond0_1 (grid0.coords t))
    (x0 : Vec Ideal S64x1x256x128 .f32) (x1 xo3 : Vec Ideal S1x8416x128 .f32) (u : Fin 1) (r' : Fin 2048) (l : Fin 128)
    (r : Fin 8416) (hr : r.val = (t.val % 4) * 2048 + r'.val) :
    VO0_2.read (Elt Ideal) (VO0_2.writes (Elt Ideal) VO0_2.junk
        (kernelRun0_C (F := Ideal) c (grid0.coords t) arg2 harg2 arg3 harg3 arg4 harg4 arg5 harg5 hc0 hc1 x0 x1 xo3).1) (ix3 u r' l)
      = xo3 (ix3 u r l) + tripSum t.val x0 64 r.val l := by
  have hoff := off3_eq t
  unfold kernelRun0_C
  dsimp only
  refine (View.read_writes_cons_unit_of_mem VO0_2 _ _ _ [] (ix3 u r' l) (ix3 u r' l) rfl ?_).trans ?_
  · intro a
    match a with
    | ⟨0, _⟩ => show u.val = 0 + u.val; omega
    | ⟨1, _⟩ => show r'.val = 0 + r'.val; omega
    | ⟨2, _⟩ => show l.val = 0 + l.val; omega
  · simp only [k0_pay3, shapeCast_shapeCast]
    rw [View.readAt_eq_ld]
    refine (ld_unit_apply _ _ (ix3 u r' l) (ix3 u r l) hoff ?_).trans ?_
    · intro a
      match a with
      | ⟨0, _⟩ => show u.val = 0 + u.val; omega
      | ⟨1, _⟩ => show r.val = (t.val % 4) * 2048 + r'.val; omega
      | ⟨2, _⟩ => show l.val = 0 + l.val; omega
    · refine (loop_read64 _ c _ t arg2 harg2 arg3 harg3 arg4 harg4 arg5 harg5 _ _ u r l _ (by decide)).trans ?_
      rw [harg5.read_unread, harg2.read_unread]

end Cert.KernelIdeal.Val

end
-- ==== Proof.KAcc.lean ====
/-
  What the windows 0 … n − 1 add to row r, lane l, of channel ch's accumulator, the update array taken in its
  (window, channel, row, lane) layout: one eighth of row r − 32·b of every window b < n whose 256 rows lie over r.
-/
import proofs.«129674_j62680752718461_2_alg».proof.Proof.Spec

noncomputable section

open scoped BigOperators

namespace Cert.OverlapAdd

open Idealize.ShloMosaic Idealize.ShloMosaic.ValueIdx

/-- The update array in (window, channel, row, lane) layout. -/
abbrev SUpd4 : Shape := ⟨4, ![256, 2, 256, 128]⟩
/-- The snapshot in (channel, row, lane) layout. -/
abbrev SSnap3 : Shape := ⟨3, ![2, 8416, 128]⟩

/-- The index (b, ch, r, l) of the update array, the window and the row reduced into range. -/
def updIdx (b : Nat) (ch : Fin 2) (r : Nat) (l : Fin 128) : SUpd4.Idx :=
  ix4 (⟨b % 256, Nat.mod_lt _ (by decide)⟩ : Fin 256) ch (⟨r % 256, Nat.mod_lt _ (by decide)⟩ : Fin 256) l

/-- What windows 0 … n − 1 add at row `r`, lane `l` of channel `ch`. -/
def winSum (A0 : SUpd4.Idx → EReal) (ch : Fin 2) (n r : Nat) (l : Fin 128) : EReal :=
  ∑ b ∈ Finset.range n, if b * 32 ≤ r ∧ r < b * 32 + 256 then A0 (updIdx b ch (r - b * 32) l) * eighth else 0

end Cert.OverlapAdd

end
-- ==== Proof.KSum.lean ====
/-
  Sums of window contributions: the 64 windows one grid point adds, in the update array's (window, channel, row, lane)
  layout, extend the sum over the earlier windows; and windows that start below row r's first window add nothing at r.
-/
import proofs.«129674_j62680752718461_2_alg».proof.Proof.KAcc

noncomputable section

open scoped BigOperators

namespace Cert.OverlapAdd

open Idealize.ShloMosaic Idealize.ShloMosaic.ValueIdx

/-- Window `b`'s contribution at row `r`, lane `l` of channel `ch`. -/
def winTerm (A0 : SUpd4.Idx → EReal) (ch : Fin 2) (r : Nat) (l : Fin 128) (b : Nat) : EReal :=
  if b * 32 ≤ r ∧ r < b * 32 + 256 then A0 (updIdx b ch (r - b * 32) l) * eighth else 0

theorem winSum_eq (A0 : SUpd4.Idx → EReal) (ch : Fin 2) (n r : Nat) (l : Fin 128) :
    winSum A0 ch n r l = ∑ b ∈ Finset.range n, winTerm A0 ch r l b := rfl

/-- The next `k` windows extend the sum. -/
theorem winSum_add (A0 : SUpd4.Idx → EReal) (ch : Fin 2) (n k r : Nat) (l : Fin 128) :
    winSum A0 ch (n + k) r l = winSum A0 ch n r l + ∑ j ∈ Finset.range k, winTerm A0 ch r l (n + j) := by
  rw [winSum_eq, winSum_eq, Finset.sum_range_add]

/-- Windows from `n` on start above row `r`: they add nothing there. -/
theorem winSum_stable (A0 : SUpd4.Idx → EReal) (ch : Fin 2) (n n' r : Nat) (l : Fin 128) (hn : n ≤ n') (hr : r < n * 32) :
    winSum A0 ch n' r l = winSum A0 ch n r l := by
  obtain ⟨k, rfl⟩ := Nat.exists_eq_add_of_le hn
  rw [winSum_add]
  have : ∑ j ∈ Finset.range k, winTerm A0 ch r l (n + j) = 0 := Finset.sum_eq_zero fun j _ => by
    unfold winTerm
    rw [if_neg]
    intro h
    have := h.1
    have h2 : n * 32 ≤ (n + j) * 32 := Nat.mul_le_mul_right _ (Nat.le_add_right _ _)
    omega
  rw [this, add_zero]

end Cert.OverlapAdd

end
-- ==== Proof.KHost.lean ====
/-
  The kernel program's host operations around the region, read at an index.

  Before the region the update array [256, 2, 32768] is re-laid as [256, 2, 256, 128] and the snapshot
  [2, 1077248] as [2, 8416, 128]: rows of 128 lanes, position p = 128·r + l. After the region the first result
  [2, 8192, 128] is flattened to [2, 1048576] and given a leading unit axis, and the second result [2, 8416, 128]
  is flattened to [2, 1077248]: position p is row p / 128, lane p % 128. A reshape keeps the row-major position.
-/
import proofs.«129674_j62680752718461_2_alg».proof.Proof.Gen.KernelIdeal.Frame.Runs
import Idealize.ShloMosaic.Lib.StableHlo.Run
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx
open Idealize.SL Idealize.SL.Sem
open Idealize.ShloMosaic.Pipeline (Dat Cfg)
open Cert.KernelIdeal Cert.KernelIdeal.Gen

/-! ## The four reshapes and the broadcast, at an index -/

section Layout
variable {α : Type}

/-- [256, 2, 32768] re-laid as [256, 2, 256, 128]: (b, ch, r, l) reads sample 128·r + l. -/
theorem cast_upd_apply (x : S256x2x32768.Idx → α) (h : S256x2x32768.ShapeCasts S256x2x256x128)
    (b : Fin 256) (ch : Fin 2) (r' : Fin 256) (l : Fin 128) :
    shapeCast S256x2x256x128 x h (ix4 b ch r' l)
      = x (ix3 b ch ⟨r'.val * 128 + l.val, by have := r'.isLt; have := l.isLt; omega⟩) :=
  shapeCast_apply x h _ _ (by
    rw [Shape.rowMajor_val_three, Shape.rowMajor_val_four]
    show (b.val * 2 + ch.val) * 32768 + (r'.val * 128 + l.val)
      = ((b.val * 2 + ch.val) * 256 + r'.val) * 128 + l.val
    omega)

/-- [2, 1077248] re-laid as [2, 8416, 128]: (ch, r, l) reads position 128·r + l. -/
theorem cast_snap_apply (x : S2x1077248.Idx → α) (h : S2x1077248.ShapeCasts S2x8416x128)
    (ch : Fin 2) (r : Fin 8416) (l : Fin 128) :
    shapeCast S2x8416x128 x h (ix3 ch r l)
      = x (ix2 ch ⟨r.val * 128 + l.val, by have := r.isLt; have := l.isLt; omega⟩) :=
  shapeCast_apply x h _ _ (by
    rw [Shape.rowMajor_val_two, Shape.rowMajor_val_three]
    show ch.val * 1077248 + (r.val * 128 + l.val) = (ch.val * 8416 + r.val) * 128 + l.val
    omega)

/-- [2, 8192, 128] flattened to [2, 1048576]: position p reads row p / 128, lane p % 128. -/
theorem cast_out_apply (z : S2x8192x128.Idx → α) (h : S2x8192x128.ShapeCasts S2x1048576)
    (ch : Fin 2) (p : Fin 1048576) :
    shapeCast S2x1048576 z h (ix2 ch p)
      = z (ix3 ch ⟨p.val / 128, by have := p.isLt; omega⟩ ⟨p.val % 128, Nat.mod_lt _ (by decide)⟩) :=
  shapeCast_apply z h _ _ (by
    rw [Shape.rowMajor_val_three, Shape.rowMajor_val_two]
    show (ch.val * 8192 + p.val / 128) * 128 + p.val % 128 = ch.val * 1048576 + p.val
    omega)

/-- [2, 8416, 128] flattened to [2, 1077248]: position p reads row p / 128, lane p % 128. -/
theorem cast_snapOut_apply (z : S2x8416x128.Idx → α) (h : S2x8416x128.ShapeCasts S2x1077248)
    (ch : Fin 2) (p : Fin 1077248) :
    shapeCast S2x1077248 z h (ix2 ch p)
      = z (ix3 ch ⟨p.val / 128, by have := p.isLt; omega⟩ ⟨p.val % 128, Nat.mod_lt _ (by decide)⟩) :=
  shapeCast_apply z h _ _ (by
    rw [Shape.rowMajor_val_three, Shape.rowMajor_val_two]
    show (ch.val * 8416 + p.val / 128) * 128 + p.val % 128 = ch.val * 1077248 + p.val
    omega)

/-- [2, 1048576] under a leading unit axis: (u, ch, p) reads (ch, p). -/
theorem bcast_out_apply (y : S2x1048576.Idx → α)
    (h : S2x1048576.BroadcastsInDim S1x2x1048576 (![1, 2] : Fin 2 → Fin S1x2x1048576.rank))
    (u : Fin 1) (ch : Fin 2) (p : Fin 1048576) :
    broadcastInDim S1x2x1048576 ![1, 2] h y (ix3 u ch p) = y (ix2 ch p) :=
  broadcastInDim_apply _ h y _ _ (fun a => by
    match a with
    | ⟨0, _⟩ => rfl
    | ⟨1, _⟩ => rfl)

end Layout

/-! ## Before the region -/

section Before
variable {F : FTy → Type} [FloatOps F]
variable (m : (ℓ : Loc nD τ sig) → Buf (Elt F) ℓ)

/-- The region finds the update array re-laid in rows of 128 lanes. -/
theorem V_v0_apply (c : Dev nD) (b : Fin 256) (ch : Fin 2) (r' : Fin 256) (l : Fin 128) :
    V m c main_v0 (ix4 b ch r' l)
      = m ((c : Thread nD τ).loc main_arg0)
          (ix3 b ch ⟨r'.val * 128 + l.val, by have := r'.isLt; have := l.isLt; omega⟩) := by
  have e : (V m c main_v0 : (⟨S256x2x256x128, .f32⟩ : BufTy).Contents (Elt F))
      = shapeCast S256x2x256x128 (m ((c : Thread nD τ).loc main_arg0)) shapeCasts_S256x2x32768_S256x2x256x128 := by
    show StableHlo.after hostOps0 (fun b => m (c, b)) (Proc.devRef .tc main_v0) = _
    after_results
    rfl
  exact (congrFun e _).trans (cast_upd_apply _ _ b ch r' l)

/-- The region finds the snapshot re-laid in rows of 128 lanes. -/
theorem V_v1_apply (c : Dev nD) (ch : Fin 2) (r : Fin 8416) (l : Fin 128) :
    V m c main_v1 (ix3 ch r l)
      = m ((c : Thread nD τ).loc main_arg1)
          (ix2 ch ⟨r.val * 128 + l.val, by have := r.isLt; have := l.isLt; omega⟩) := by
  have e : (V m c main_v1 : (⟨S2x8416x128, .f32⟩ : BufTy).Contents (Elt F))
      = shapeCast S2x8416x128 (m ((c : Thread nD τ).loc main_arg1)) shapeCasts_S2x1077248_S2x8416x128 := by
    show StableHlo.after hostOps0 (fun b => m (c, b)) (Proc.devRef .tc main_v1) = _
    after_results
    rfl
  exact (congrFun e _).trans (cast_snap_apply _ _ ch r l)

end Before

/-! ## After the region -/

section After
variable {F : FTy → Type} [FloatOps F]
variable (m : (ℓ : Loc nD τ sig) → Buf (Elt F) ℓ)

/-- The first result, under its leading unit axis: position p of channel ch is the region's first output array at
    row p / 128, lane p % 128. -/
theorem tail_v4 (dats : (p : Fin 1) → (c : Dev nD) → Dat τ (Elt F) Unit ℕ (UR sig nD τ) ℕ (cfgs p) c)
    (c : Dev nD) (u : Fin 1) (ch : Fin 2) (p : Fin 1048576) :
    Pipeline.afterTail₀ cfgs dats 0 (V0 m) [hostOps1] c main_v4 (ix3 u ch p)
      = ((dats 0 c).arrAt 2 cfg0.N : (⟨S2x8192x128, .f32⟩ : BufTy).Contents (Elt F))
          (ix3 ch ⟨p.val / 128, by have := p.isLt; omega⟩ ⟨p.val % 128, Nat.mod_lt _ (by decide)⟩) := by
  have hw : Pipeline.withArrays (cfgs 0).spec c (V0 m c) (fun w => (dats 0 c).arrAt w (cfgs 0).N)
      (Proc.devRef .tc main_v2_0) = (dats 0 c).arrAt 2 cfg0.N :=
    Pipeline.withArrays_arr spec0 launch0.win.arr_inj c _ _ 2
  have e : (Pipeline.afterTail₀ cfgs dats 0 (V0 m) [hostOps1] c main_v4 : (⟨S1x2x1048576, .f32⟩ : BufTy).Contents (Elt F))
      = broadcastInDim S1x2x1048576 ![1, 2] bcast_S2x1048576_S1x2x1048576_1_2
          (shapeCast S2x1048576 ((dats 0 c).arrAt 2 cfg0.N : (⟨S2x8192x128, .f32⟩ : BufTy).Contents (Elt F))
            shapeCasts_S2x8192x128_S2x1048576) := by
    unfold Pipeline.afterTail₀
    show StableHlo.after hostOps1 _ (Proc.devRef .tc main_v4) = _
    after_results
    rw [hw]
    rfl
  exact (congrFun e _).trans ((bcast_out_apply _ _ u ch p).trans (cast_out_apply _ _ ch p))

/-- The second result: position p of channel ch is the region's second output array at row p / 128, lane p % 128. -/
theorem tail_v5 (dats : (p : Fin 1) → (c : Dev nD) → Dat τ (Elt F) Unit ℕ (UR sig nD τ) ℕ (cfgs p) c)
    (c : Dev nD) (ch : Fin 2) (p : Fin 1077248) :
    Pipeline.afterTail₀ cfgs dats 0 (V0 m) [hostOps1] c main_v5 (ix2 ch p)
      = ((dats 0 c).arrAt 3 cfg0.N : (⟨S2x8416x128, .f32⟩ : BufTy).Contents (Elt F))
          (ix3 ch ⟨p.val / 128, by have := p.isLt; omega⟩ ⟨p.val % 128, Nat.mod_lt _ (by decide)⟩) := by
  have hw : Pipeline.withArrays (cfgs 0).spec c (V0 m c) (fun w => (dats 0 c).arrAt w (cfgs 0).N)
      (Proc.devRef .tc main_v2_1) = (dats 0 c).arrAt 3 cfg0.N :=
    Pipeline.withArrays_arr spec0 launch0.win.arr_inj c _ _ 3
  have e : (Pipeline.afterTail₀ cfgs dats 0 (V0 m) [hostOps1] c main_v5 : (⟨S2x1077248, .f32⟩ : BufTy).Contents (Elt F))
      = shapeCast S2x1077248 ((dats 0 c).arrAt 3 cfg0.N : (⟨S2x8416x128, .f32⟩ : BufTy).Contents (Elt F))
          shapeCasts_S2x8416x128_S2x1077248 := by
    unfold Pipeline.afterTail₀
    show StableHlo.after hostOps1 _ (Proc.devRef .tc main_v5) = _
    after_results
    rw [hw]
    rfl
  exact (congrFun e _).trans (cast_snapOut_apply _ _ ch p)

end After

end Cert.KernelIdeal.Val

end
-- ==== Proof.KBlocks.lean ====
/-
  The pipeline's blocks, point by point. The grid is 2 × 4: point t has channel t / 4 and tile t % 4.
  Window 0 (the update array in rows of 128 lanes) takes 64 windows of one channel per point; window 1 (the
  snapshot) takes the whole channel; window 2 (the first result) gives 2048 rows of the channel per point; window 3
  (the second result) gives the whole channel, written back at the channel's last point.
-/
import proofs.«129674_j62680752718461_2_alg».proof.Proof.Gen.KernelIdeal.Frame.Runs
import proofs.«129674_j62680752718461_2_alg».proof.Proof.KHost

noncomputable section

namespace Cert.KernelIdeal.Val

open Idealize.ShloMosaic Idealize.ShloMosaic.TcCoe Idealize.ShloMosaic.ValueIdx
open Idealize.SL Idealize.SL.Sem
open Idealize.ShloMosaic.Pipeline (Dat Cfg)
open Cert.KernelIdeal Cert.KernelIdeal.Gen

/-! ## The index maps at a point -/

/-- Window 0's block index at point t: tile t % 4 of the windows, channel t / 4. -/
theorem idx0 : ∀ t : Fin cfg0.N, win0_0.index t = ![t.val % 4, t.val / 4, 0, 0] :=
  (by decide +kernel : ∀ t : Fin grid0.N, win0_0.index t = ![t.val % 4, t.val / 4, 0, 0])

/-- Window 1's block index at point t: channel t / 4. -/
theorem idx1 : ∀ t : Fin cfg0.N, win0_1.index t = ![t.val / 4, 0, 0] :=
  (by decide +kernel : ∀ t : Fin grid0.N, win0_1.index t = ![t.val / 4, 0, 0])

/-- Window 2's block index at point t: channel t / 4, tile t % 4 of the rows. -/
theorem idx2 : ∀ t : Fin cfg0.N, win0_2.index t = ![t.val / 4, t.val % 4, 0] :=
  (by decide +kernel : ∀ t : Fin grid0.N, win0_2.index t = ![t.val / 4, t.val % 4, 0])

/-- Window 3's block index at point t: channel t / 4. -/
theorem idx3 : ∀ t : Fin cfg0.N, win0_3.index t = ![t.val / 4, 0, 0] :=
  (by decide +kernel : ∀ t : Fin grid0.N, win0_3.index t = ![t.val / 4, 0, 0])

/-- The grid has eight points. -/
theorem t_lt (t : Fin cfg0.N) : t.val < 8 := by
  have h : t.val < grid0.N := t.isLt
  rw [N_0] at h
  exact h

/-! ## The input blocks at an index -/

section Inputs
variable {F : FTy → Type} [FloatOps F]
variable (m : (ℓ : Loc nD τ sig) → Buf (Elt F) ℓ)

/-- Window 0's block at point t: its window k is window 64·(t % 4) + k of channel t / 4. -/
theorem iblk0_apply (c : Dev nD) (t : Fin cfg0.N) (k : Fin 64) (u : Fin 1) (r' : Fin 256) (l : Fin 128) :
    (iblk m c 0 t : Vec F S64x1x256x128 .f32) (ix4 k u r' l)
      = V m c main_v0 (ix4 (⟨(t.val % 4) * 64 + k.val, by have := k.isLt; omega⟩ : Fin 256)
          (⟨t.val / 4, by have := t_lt t; omega⟩ : Fin 2) r' l) := by
  have e := idx0 t
  have e0 : win0_0.index t (0 : Fin 4) = t.val % 4 := congrFun e 0
  have e1 : win0_0.index t (1 : Fin 4) = t.val / 4 := congrFun e 1
  have e2 : win0_0.index t (2 : Fin 4) = 0 := congrFun e 2
  have e3 : win0_0.index t (3 : Fin 4) = 0 := congrFun e 3
  have hu : u.val = 0 := by omega
  unfold iblk
  rw [View.read_apply]
  show V m c main_v0 (((cfg0.win 0).blk t).view.emb (ix4 k u r' l)) = V m c main_v0 _
  refine congrArg (V m c main_v0) ?_
  funext a
  apply Fin.ext
  match a with
  | ⟨0, _⟩ => show win0_0.index t (0 : Fin 4) * 64 + 1 * k.val = (t.val % 4) * 64 + k.val; omega
  | ⟨1, _⟩ => show win0_0.index t (1 : Fin 4) * 1 + 1 * u.val = t.val / 4; omega
  | ⟨2, _⟩ => show win0_0.index t (2 : Fin 4) * 256 + 1 * r'.val = r'.val; omega
  | ⟨3, _⟩ => show win0_0.index t (3 : Fin 4) * 128 + 1 * l.val = l.val; omega

/-- Window 1's block at point t: channel t / 4 of the snapshot. -/
theorem iblk1_apply (c : Dev nD) (t : Fin cfg0.N) (u : Fin 1) (r : Fin 8416) (l : Fin 128) :
    (iblk m c 1 t : Vec F S1x8416x128 .f32) (ix3 u r l)
      = V m c main_v1 (ix3 (⟨t.val / 4, by have := t_lt t; omega⟩ : Fin 2) r l) := by
  have e := idx1 t
  have e0 : win0_1.index t (0 : Fin 3) = t.val / 4 := congrFun e 0
  have e1 : win0_1.index t (1 : Fin 3) = 0 := congrFun e 1
  have e2 : win0_1.index t (2 : Fin 3) = 0 := congrFun e 2
  have hu : u.val = 0 := by omega
  unfold iblk
  rw [View.read_apply]
  show V m c main_v1 (((cfg0.win 1).blk t).view.emb (ix3 u r l)) = V m c main_v1 _
  refine congrArg (V m c main_v1) ?_
  funext a
  apply Fin.ext
  match a with
  | ⟨0, _⟩ => show win0_1.index t (0 : Fin 3) * 1 + 1 * u.val = t.val / 4; omega
  | ⟨1, _⟩ => show win0_1.index t (1 : Fin 3) * 8416 + 1 * r.val = r.val; omega
  | ⟨2, _⟩ => show win0_1.index t (2 : Fin 3) * 128 + 1 * l.val = l.val; omega

end Inputs

/-! ## The output windows' blocks as index sets -/

/-- An index of the first result's array is in point t's block iff each coordinate is in the block's range. -/
theorem mem_blk2 (t : Fin cfg0.N) (i : S2x8192x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v2_0).slice (win0_2.rect t)).set ↔ _
  rw [View.set_slice_whole, Rect.mem_set_unit]
  exact Iff.rfl

/-- An index of the second result's array is in point t's block iff each coordinate is in the block's range. -/
theorem mem_blk3 (t : Fin cfg0.N) (i : S2x8416x128.Idx) :
    i ∈ ((cfg0.win 3).blk t).view.set ↔ ∀ a : Fin 3, win0_3.index t a * S1x8416x128.size a ≤ (i a).val
      ∧ (i a).val < win0_3.index t a * S1x8416x128.size a + S1x8416x128.size a := by
  show i ∈ ((View.whole main_v2_1).slice (win0_3.rect t)).set ↔ _
  rw [View.set_slice_whole, Rect.mem_set_unit]
  exact Iff.rfl

/-- Every index of the first result's array is in the block of a point that writes back: channel i 0, rows'
    tile (i 1) / 2048, the point 4·(i 0) + (i 1) / 2048. -/
theorem cover2 (i : S2x8192x128.Idx) :
    ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 128 := (i 2).isLt
  obtain ⟨t, ht⟩ : ∃ t : Fin cfg0.N, t.val = 4 * (i 0).val + (i 1).val / 2048 :=
    ⟨⟨4 * (i 0).val + (i 1).val / 2048, by show _ < grid0.N; rw [N_0]; omega⟩, rfl⟩
  refine ⟨t, flush0_2 t, ?_⟩
  rw [mem_blk2]
  have e := idx2 t
  have e0 : win0_2.index t (0 : Fin 3) = t.val / 4 := congrFun e 0
  have e1 : win0_2.index t (1 : Fin 3) = t.val % 4 := congrFun e 1
  have e2 : win0_2.index t (2 : Fin 3) = 0 := congrFun e 2
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 128 ≤ (i 2).val ∧ (i 2).val < win0_2.index t (2 : Fin 3) * 128 + 128
    omega

/-- Every index of the second result's array is in the block of a point that writes back: the last point of
    channel i 0, the point 4·(i 0) + 3. -/
theorem cover3 (i : S2x8416x128.Idx) :
    ∃ t : Fin cfg0.N, (cfg0.win 3).flush t = true ∧ i ∈ ((cfg0.win 3).blk t).view.set := by
  have h0 : (i 0).val < 2 := (i 0).isLt
  have h1 : (i 1).val < 8416 := (i 1).isLt
  have h2 : (i 2).val < 128 := (i 2).isLt
  obtain ⟨t, ht⟩ : ∃ t : Fin cfg0.N, t.val = 4 * (i 0).val + 3 :=
    ⟨⟨4 * (i 0).val + 3, by show _ < grid0.N; rw [N_0]; omega⟩, rfl⟩
  refine ⟨t, (flush0_3 t).2 (by omega), ?_⟩
  rw [mem_blk3]
  have e := idx3 t
  have e0 : win0_3.index t (0 : Fin 3) = t.val / 4 := congrFun e 0
  have e1 : win0_3.index t (1 : Fin 3) = 0 := congrFun e 1
  have e2 : win0_3.index t (2 : Fin 3) = 0 := congrFun e 2
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8416 ≤ (i 1).val ∧ (i 1).val < win0_3.index t (1 : Fin 3) * 8416 + 8416
    omega
  | ⟨2, _⟩ =>
    show win0_3.index t (2 : Fin 3) * 128 ≤ (i 2).val ∧ (i 2).val < win0_3.index t (2 : Fin 3) * 128 + 128
    omega

/-- Where an element of window 2's block at point t sits in the first result's array. -/
theorem blk2_emb (t : Fin cfg0.N) (u : Fin 1) (r' : Fin 2048) (l : Fin 128) :
    (((cfg0.win 2).blk t).view.emb (ix3 u r' l) : S2x8192x128.Idx)
      = ix3 (⟨t.val / 4, by have := t_lt t; omega⟩ : Fin 2)
          (⟨(t.val % 4) * 2048 + r'.val, by have := r'.isLt; omega⟩ : Fin 8192) l := by
  have e := idx2 t
  have e0 : win0_2.index t (0 : Fin 3) = t.val / 4 := congrFun e 0
  have e1 : win0_2.index t (1 : Fin 3) = t.val % 4 := congrFun e 1
  have e2 : win0_2.index t (2 : Fin 3) = 0 := congrFun e 2
  have hu : u.val = 0 := by omega
  funext a
  apply Fin.ext
  match a with
  | ⟨0, _⟩ => show win0_2.index t (0 : Fin 3) * 1 + 1 * u.val = t.val / 4; omega
  | ⟨1, _⟩ => show win0_2.index t (1 : Fin 3) * 2048 + 1 * r'.val = (t.val % 4) * 2048 + r'.val; omega
  | ⟨2, _⟩ => show win0_2.index t (2 : Fin 3) * 128 + 1 * l.val = l.val; omega

/-- Where an element of window 3's block at point t sits in the second result's array. -/
theorem blk3_emb (t : Fin cfg0.N) (u : Fin 1) (r : Fin 8416) (l : Fin 128) :
    (((cfg0.win 3).blk t).view.emb (ix3 u r l) : S2x8416x128.Idx)
      = ix3 (⟨t.val / 4, by have := t_lt t; omega⟩ : Fin 2) r l := by
  have e := idx3 t
  have e0 : win0_3.index t (0 : Fin 3) = t.val / 4 := congrFun e 0
  have e1 : win0_3.index t (1 : Fin 3) = 0 := congrFun e 1
  have e2 : win0_3.index t (2 : Fin 3) = 0 := congrFun e 2
  have hu : u.val = 0 := by omega
  funext a
  apply Fin.ext
  match a with
  | ⟨0, _⟩ => show win0_3.index t (0 : Fin 3) * 1 + 1 * u.val = t.val / 4; omega
  | ⟨1, _⟩ => show win0_3.index t (1 : Fin 3) * 8416 + 1 * r.val = r.val; omega
  | ⟨2, _⟩ => show win0_3.index t (2 : Fin 3) * 128 + 1 * l.val = l.val; omega

end Cert.KernelIdeal.Val

end
-- ==== Proof.KPoints.lean ====
/-
  What the two outputs' staging buffers hold after each grid point, as functions of the arrays the region finds.

  After the point of channel ch and batch tile bt that is not the channel's last, the accumulator holds the channel's
  snapshot plus the contributions of windows 0 … 64·(bt + 1) − 1; every point streams out 2048 rows that no later window
  touches, so they already hold the contributions of all 256 windows; and the channel's last point leaves the accumulator's
  last 224 rows at the front, zeros behind.
-/
import proofs.«129674_j62680752718461_2_alg».proof.Proof.KernelIdealFrame
import proofs.«129674_j62680752718461_2_alg».proof.Proof.KCaseC
import proofs.«129674_j62680752718461_2_alg».proof.Proof.KSum
import proofs.«129674_j62680752718461_2_alg».proof.Proof.KBlocks

set_option maxRecDepth 16384

noncomputable section

open scoped BigOperators

namespace Cert.KernelIdeal.Val

open Cert.KernelIdeal Cert.KernelIdeal.Gen Cert.KernelIdeal.GenP Cert.OverlapAdd
open Idealize.ShloMosaic Idealize.ShloMosaic.TcCoe Idealize.ShloMosaic.ValueIdx Idealize.SL.Sem

variable (m : (ℓ : Loc nD τ sig) → Buf (Elt Ideal) ℓ)

/-- The channel of grid point `n`. -/
def chOf (n : Nat) : Fin 2 := ⟨n / 4 % 2, Nat.mod_lt _ (by decide)⟩

theorem chOf_eq (t : Fin cfg0.N) (h : t.val / 4 < 2) : (⟨t.val / 4, h⟩ : Fin 2) = chOf t.val :=
  Fin.ext (by show t.val / 4 = t.val / 4 % 2; omega)

/-- The update array as the region finds it, in (window, channel, row, lane) layout. -/
def arr0 (c : Dev nD) : S256x2x256x128.Idx → EReal := V m c main_v0
/-- The snapshot as the region finds it, in (channel, row, lane) layout. -/
def arr1 (c : Dev nD) : S2x8416x128.Idx → EReal := V m c main_v1

/-- The accumulator's row `r`, lane `l` of channel `chOf n` once windows 0 … k − 1 are in. -/
def accRow (c : Dev nD) (n k : Nat) (r : Fin 8416) (l : Fin 128) : EReal :=
  arr1 m c (ix3 (chOf n) r l) + winSum (arr0 m c) (chOf n) k r.val l

/-- The 64 windows of point `t`, read off the staged update block, are windows 64·(t % 4) … of the update array. -/
theorem tripSum_blk (c : Dev nD) (t : Fin cfg0.N) (r : Nat) (l : Fin 128) :
    tripSum t.val (iblk m c 0 t : Vec Ideal S64x1x256x128 .f32) 64 r l
      = ∑ j ∈ Finset.range 64, winTerm (arr0 m c) (chOf t.val) r l ((t.val % 4) * 64 + j) := by
  have hN : t.val < 8 := lt_of_lt_of_eq t.isLt N_0
  unfold tripSum
  refine Finset.sum_congr rfl fun k hk => ?_
  have hk' : k < 64 := Finset.mem_range.mp hk
  unfold winTerm rowOf
  refine if_congr Iff.rfl ?_ rfl
  refine congrArg (· * eighth) ?_
  unfold blkIdx updIdx
  rw [iblk0_apply, chOf_eq t (by omega)]
  refine congrArg (arr0 m c) ?_
  funext a
  match a with
  | ⟨0, _⟩ => exact Fin.ext (by show (t.val % 4) * 64 + k % 64 = ((t.val % 4) * 64 + k) % 256; omega)
  | ⟨1, _⟩ => rfl
  | ⟨2, _⟩ => rfl
  | ⟨3, _⟩ => rfl

/-- One point's loop takes the accumulator from windows 0 … 64·(t % 4) − 1 to windows 0 … 64·(t % 4 + 1) − 1. -/
theorem point_sum (c : Dev nD) (t : Fin cfg0.N) (prev : EReal) (r : Fin 8416) (l : Fin 128)
    (hprev : prev = accRow m c t.val ((t.val % 4) * 64) r l) :
    prev + tripSum t.val (iblk m c 0 t : Vec Ideal S64x1x256x128 .f32) 64 r.val l = accRow m c t.val ((t.val % 4 + 1) * 64) r l := by
  rw [hprev, tripSum_blk]
  unfold accRow
  rw [show (t.val % 4 + 1) * 64 = (t.val % 4) * 64 + 64 by ring, winSum_add, add_assoc]

/-- The snapshot block staged for point `t` is the accumulator with no window in. -/
theorem snap_blk (c : Dev nD) (t : Fin cfg0.N) (h0 : t.val % 4 = 0) (u : Fin 1) (r : Fin 8416) (l : Fin 128) :
    (iblk m c 1 t : Vec Ideal S1x8416x128 .f32) (ix3 u r l) = accRow m c t.val ((t.val % 4) * 64) r l := by
  have hN : t.val < 8 := lt_of_lt_of_eq t.isLt N_0
  rw [iblk1_apply, chOf_eq t (by omega), h0]
  unfold accRow winSum arr1
  rw [Nat.zero_mul, Finset.sum_range_zero, add_zero]

/-- THE ACCUMULATOR after a point that is not its channel's last: the snapshot plus windows 0 … 64·(n % 4 + 1) − 1. -/
theorem acc_AB (c : Dev nD) : ∀ (n : ℕ) (hn : n < cfg0.N), n % 4 ≠ 3 → ∀ (u : Fin 1) (r : Fin 8416) (l : Fin 128),
    (outsAt0 m c n hn).2 (ix3 u r l) = accRow m c n ((n % 4 + 1) * 64) r l
  | 0, hn, _, u, r, l => by
    have e := outsAt0_A m c ⟨0, hn⟩ rfl (by decide : ¬(0 : ℕ) % 4 = 3)
    rw [show outsAt0 m c 0 hn = outsAt0 m c (⟨0, hn⟩ : Fin cfg0.N).val (⟨0, hn⟩ : Fin cfg0.N).isLt from rfl, e]
    dsimp only
    unfold out0_A_3
    refine (caseA_acc c ⟨0, hn⟩ _ _ _ _ _ _ _ _ _ _ _ _ u r l).trans ?_
    exact point_sum m c ⟨0, hn⟩ _ r l (snap_blk m c ⟨0, hn⟩ rfl u r l)
  | n + 1, hn, h3, u, r, l => by
    have hN : n + 1 < 8 := lt_of_lt_of_eq hn N_0
    by_cases h0 : (n + 1) % 4 = 0
    · have e := outsAt0_A m c ⟨n + 1, hn⟩ h0 h3
      rw [show outsAt0 m c (n + 1) hn = outsAt0 m c (⟨n + 1, hn⟩ : Fin cfg0.N).val (⟨n + 1, hn⟩ : Fin cfg0.N).isLt from rfl, e]
      dsimp only
      unfold out0_A_3
      refine (caseA_acc c ⟨n + 1, hn⟩ _ _ _ _ _ _ _ _ _ _ _ _ u r l).trans ?_
      exact point_sum m c ⟨n + 1, hn⟩ _ r l (snap_blk m c ⟨n + 1, hn⟩ h0 u r l)
    · have e := outsAt0_B m c ⟨n + 1, hn⟩ h0 h3
      rw [show outsAt0 m c (n + 1) hn = outsAt0 m c (⟨n + 1, hn⟩ : Fin cfg0.N).val (⟨n + 1, hn⟩ : Fin cfg0.N).isLt from rfl, e]
      dsimp only
      unfold out0_B_3
      refine (caseB_acc c ⟨n + 1, hn⟩ _ _ _ _ _ _ _ _ _ _ _ _ _ u r l).trans ?_
      refine point_sum m c ⟨n + 1, hn⟩ _ r l ?_
      have ih := acc_AB c n (Nat.lt_of_succ_lt hn) (by omega) u r l
      refine ih.trans ?_
      unfold accRow chOf
      have e1 : n / 4 % 2 = (n + 1) / 4 % 2 := by omega
      have e2 : (n % 4 + 1) * 64 = ((n + 1) % 4) * 64 := by omega
      simp only [e1, e2]

end Cert.KernelIdeal.Val

end
-- ==== Proof.KOuts.lean ====
/-
  The rows every point streams out, and the accumulator after a channel's last point, with all 256 windows in.
-/
import proofs.«129674_j62680752718461_2_alg».proof.Proof.KPoints

set_option maxRecDepth 16384

noncomputable section

open scoped BigOperators

namespace Cert.KernelIdeal.Val

open Cert.KernelIdeal Cert.KernelIdeal.Gen Cert.KernelIdeal.GenP Cert.OverlapAdd
open Idealize.ShloMosaic Idealize.ShloMosaic.TcCoe Idealize.ShloMosaic.ValueIdx Idealize.SL.Sem

variable (m : (ℓ : Loc nD τ sig) → Buf (Elt Ideal) ℓ)

/-- What the accumulator holds when a point that is not its channel's first starts: the point before's. -/
theorem prev_acc (c : Dev nD) (t : Fin cfg0.N) (h0 : ¬t.val % 4 = 0) (u : Fin 1) (r : Fin 8416) (l : Fin 128) :
    (outsAt0 m c (t.val - 1) (Nat.lt_of_le_of_lt (Nat.sub_le _ _) t.isLt)).2 (ix3 u r l)
      = accRow m c t.val ((t.val % 4) * 64) r l := by
  have hN : t.val < 8 := lt_of_lt_of_eq t.isLt N_0
  refine (acc_AB m c (t.val - 1) _ (by omega) u r l).trans ?_
  unfold accRow chOf
  have e1 : (t.val - 1) / 4 % 2 = t.val / 4 % 2 := by omega
  have e2 : ((t.val - 1) % 4 + 1) * 64 = (t.val % 4) * 64 := by omega
  simp only [e1, e2]

/-- Rows below 2048·(t % 4 + 1) are below every window from 64·(t % 4 + 1) on: they already hold all 256 windows. -/
theorem accRow_full (c : Dev nD) (t : Fin cfg0.N) (r : Fin 8416) (l : Fin 128) (hr : r.val < (t.val % 4 + 1) * 2048) :
    accRow m c t.val ((t.val % 4 + 1) * 64) r l = accRow m c t.val 256 r l := by
  unfold accRow
  rw [winSum_stable _ _ ((t.val % 4 + 1) * 64) 256 r.val l (by omega) (by omega)]

/-- THE ROWS STREAMED OUT at any point: rows 2048·(t % 4) … of the channel's accumulator with all 256 windows in. -/
theorem out_any (c : Dev nD) (t : Fin cfg0.N) (u : Fin 1) (r' : Fin 2048) (l : Fin 128) (r : Fin 8416)
    (hr : r.val = (t.val % 4) * 2048 + r'.val) :
    (outsAt0 m c t.val t.isLt).1 (ix3 u r' l) = accRow m c t.val 256 r l := by
  have hN : t.val < 8 := lt_of_lt_of_eq t.isLt N_0
  have hfull := accRow_full m c t r l (by omega)
  by_cases h0 : t.val % 4 = 0
  · have h3 : ¬t.val % 4 = 3 := by omega
    rw [outsAt0_A m c t h0 h3]
    dsimp only
    unfold out0_A_2
    refine (caseA_out c t _ _ _ _ _ _ _ _ _ _ _ _ u r' l r hr).trans ?_
    exact (point_sum m c t _ r l (snap_blk m c t h0 u r l)).trans hfull
  · by_cases h3 : t.val % 4 = 3
    · rw [outsAt0_C m c t h0 h3]
      dsimp only
      unfold out0_C_2
      refine (caseC_out c t _ _ _ _ _ _ _ _ _ _ _ _ _ u r' l r hr).trans ?_
      exact (point_sum m c t _ r l (prev_acc m c t h0 u r l)).trans hfull
    · rw [outsAt0_B m c t h0 h3]
      dsimp only
      unfold out0_B_2
      refine (caseB_out c t _ _ _ _ _ _ _ _ _ _ _ _ _ u r' l r hr).trans ?_
      exact (point_sum m c t _ r l (prev_acc m c t h0 u r l)).trans hfull

/-- THE ACCUMULATOR after a channel's last point: its last 224 rows, all 256 windows in, at the front; zeros behind. -/
theorem acc_C (c : Dev nD) (t : Fin cfg0.N) (h3 : t.val % 4 = 3) (u : Fin 1) (r : Fin 8416) (l : Fin 128) :
    (outsAt0 m c t.val t.isLt).2 (ix3 u r l)
      = if h : r.val < 224 then accRow m c t.val 256 (⟨r.val + 8192, by omega⟩ : Fin 8416) l
        else Ideal.ofBits .f32 0x00000000#32 := by
  have hN : t.val < 8 := lt_of_lt_of_eq t.isLt N_0
  have h0 : ¬t.val % 4 = 0 := by omega
  rw [outsAt0_C m c t h0 h3]
  dsimp only
  unfold out0_C_3
  refine (caseC_acc c t _ _ _ _ _ _ _ _ _ _ _ _ _ u r l).trans ?_
  split_ifs with h
  · have hp := prev_acc m c t h0 u (⟨r.val + 8192, by omega⟩ : Fin 8416) l
    refine (point_sum m c t _ (⟨r.val + 8192, by omega⟩ : Fin 8416) l hp).trans ?_
    rw [h3]
  · rfl

end Cert.KernelIdeal.Val

end
-- ==== Proof.KFinal.lean ====
/-
  The two result arrays of the region, as functions of the arrays the region finds.

  Every point writes back 2048 rows of the first result's array, already holding the snapshot plus what all 256 windows
  add there; those blocks tile the array. A channel's last point writes back the whole second result's channel: the
  accumulated rows 8192 … 8415 at the front, zeros behind.
-/
import proofs.«129674_j62680752718461_2_alg».proof.Proof.KOuts
import proofs.«129674_j62680752718461_2_alg».proof.Proof.KBlocks

set_option maxRecDepth 16384

noncomputable section

open scoped BigOperators

namespace Cert.KernelIdeal.Val

open Cert.KernelIdeal Cert.KernelIdeal.Gen Cert.KernelIdeal.GenP Cert.OverlapAdd
open Idealize.ShloMosaic Idealize.ShloMosaic.TcCoe Idealize.ShloMosaic.ValueIdx Idealize.SL.Sem

variable (m : (ℓ : Loc nD τ sig) → Buf (Elt Ideal) ℓ)

/-! ## The two result arrays of the region -/

/-- The first result's array after the region: at channel, row, lane, the snapshot there plus what all 256 windows
    add there. -/
def Z2 (c : Dev nD) : S2x8192x128.Idx → EReal := fun i =>
  arr1 m c (ix3 (i 0) (Fin.castLE (by decide) (i 1)) (i 2)) + winSum (arr0 m c) (i 0) 256 (i 1).val (i 2)

/-- The second result's array after the region: its first 224 rows are the accumulated rows 8192 … 8415, with all
    256 windows in; zeros behind. -/
def Z3 (c : Dev nD) : S2x8416x128.Idx → EReal := fun i =>
  if h : (i 1).val < 224 then
    arr1 m c (ix3 (i 0) ⟨(i 1).val + 8192, by omega⟩ (i 2)) + winSum (arr0 m c) (i 0) 256 ((i 1).val + 8192) (i 2)
  else Ideal.ofBits .f32 0x00000000#32

/-- What point t leaves in window 2's buffer is block t of Z2. -/
theorem out2_eq (c : Dev nD) (t : Fin cfg0.N) :
    ((outsAt0 m c t.val t.isLt).1 : Vec Ideal S1x2048x128 .f32)
      = fun j : S1x2048x128.Idx => Z2 m c (((cfg0.win 2).blk t).view.emb j) := by
  funext j
  obtain ⟨u, r', l, rfl⟩ : ∃ (u : Fin 1) (r' : Fin 2048) (l : Fin 128), j = ix3 u r' l :=
    ⟨j 0, j 1, j 2, eq_ix3 j⟩
  have ht := t_lt t
  have hr' := r'.isLt
  have h4 : t.val / 4 < 2 := by omega
  rw [blk2_emb t u r' l, out_any m c t u r' l ⟨(t.val % 4) * 2048 + r'.val, by omega⟩ rfl]
  unfold accRow
  rw [← chOf_eq t h4]
  rfl

/-- What a channel's last point leaves in window 3's buffer is its block of Z3. -/
theorem out3_eq (c : Dev nD) (t : Fin cfg0.N) (h3 : t.val % 4 = 3) :
    ((outsAt0 m c t.val t.isLt).2 : Vec Ideal S1x8416x128 .f32)
      = fun j : S1x8416x128.Idx => Z3 m c (((cfg0.win 3).blk t).view.emb j) := by
  funext j
  obtain ⟨u, r, l, rfl⟩ : ∃ (u : Fin 1) (r : Fin 8416) (l : Fin 128), j = ix3 u r l :=
    ⟨j 0, j 1, j 2, eq_ix3 j⟩
  have ht := t_lt t
  have h4 : t.val / 4 < 2 := by omega
  rw [blk3_emb t u r l, acc_C m c t h3 u r l]
  unfold Z3
  refine dite_congr rfl (fun h => ?_) (fun _ => rfl)
  unfold accRow
  rw [← chOf_eq t h4]

/-- Every point writes back block t of Z2. -/
theorem flushed2_eq (c : Dev nD) (t : Fin cfg0.N) :
    (dats m 0 c).flushed 2 t = ((cfg0.win 2).blk t).view.read (Elt Ideal) (Z2 m c) := by
  show (cfg0.win 2).cut (grid0.coords t) ((dats m 0 c).after 2 t) = _
  rw [after0_2]
  funext j
  show (outsAt0 m c t.val t.isLt).1 j = Z2 m c (((cfg0.win 2).blk t).view.emb j)
  exact congrFun (out2_eq m c t) j

/-- A channel's last point writes back its block of Z3. -/
theorem flushed3_eq (c : Dev nD) (t : Fin cfg0.N) (h3 : t.val % 4 = 3) :
    (dats m 0 c).flushed 3 t = ((cfg0.win 3).blk t).view.read (Elt Ideal) (Z3 m c) := by
  show (cfg0.win 3).cut (grid0.coords t) ((dats m 0 c).after 3 t) = _
  rw [after0_3]
  funext j
  show (outsAt0 m c t.val t.isLt).2 j = Z3 m c (((cfg0.win 3).blk t).view.emb j)
  exact congrFun (out3_eq m c t h3) j

/-- The first result's array ends holding Z2: the blocks written back cover it. -/
theorem final2 (c : Dev nD) : (dats m 0 c).arrAt 2 cfg0.N = Z2 m c :=
  (dats m 0 c).arrAt_eq_of_cover 2 (Z2 m c) (fun t _ => flushed2_eq m c t) cover2

/-- The second result's array ends holding Z3: each channel's last point writes the whole channel back. -/
theorem final3 (c : Dev nD) : (dats m 0 c).arrAt 3 cfg0.N = Z3 m c :=
  (dats m 0 c).arrAt_eq_of_cover 3 (Z3 m c) (fun t hf => flushed3_eq m c t ((flush0_3 t).mp hf)) cover3

end Cert.KernelIdeal.Val

end
-- ==== Proof.Algebra.lean ====
/-
  The arithmetic of the overlap-add over the extended reals.

  The words the two programs carry for 1/8, 8 and 1 denote those reals; dividing by 8 is multiplying by 1/8 at
  every extended real; the (window, sample) pairs lying at a position are in bijection with the windows lying
  over it; and n ≥ 1 copies of s/n add up to s for a real s, which turns the reference's per-pair sum into the
  snapshot plus an eighth of every window sample over the position.
-/
import proofs.«129674_j62680752718461_2_alg».proof.Proof.Spec
import Idealize.ShloMosaic.PureOps.Ideal.Laws

noncomputable section

open scoped BigOperators

namespace Cert.OverlapAdd

open Idealize.ShloMosaic Idealize.ShloMosaic.ValueIdx

/-- The word for one eighth denotes the real 1/8. -/
theorem eighth_eq : eighth = ((1 / 8 : ℝ) : EReal) := by
  simp [eighth, Ideal.ofBits, Ideal.ieee, -EReal.coe_mul]; norm_num

/-- The word for eight denotes the real 8. -/
theorem eight_eq : Ideal.ofBits .f32 0x41000000#32 = ((8 : ℝ) : EReal) := by
  simp [Ideal.ofBits, Ideal.ieee, -EReal.coe_mul]; norm_num

/-- The word for one denotes the real 1. -/
theorem one_eq : Ideal.ofBits .f32 0x3F800000#32 = ((1 : ℝ) : EReal) := by
  simp [Ideal.ofBits, Ideal.ieee, -EReal.coe_mul]; norm_num

/-- Dividing by eight is multiplying by one eighth, at the infinities too. -/
theorem div_eight (x : EReal) : Ideal.div x (Ideal.ofBits .f32 0x41000000#32) = x * eighth := by
  rw [eight_eq, eighth_eq, Ideal.div_coe (by norm_num)]

/-- Every position is covered: position p lies in window min (p / 4096) 255. -/
theorem hits_nonempty (p : Nat) (hp : p < 1077248) : (hits p).Nonempty := by
  refine ⟨(⟨min (p / 4096) 255, by omega⟩, ⟨p - min (p / 4096) 255 * 4096, by omega⟩), ?_⟩
  simp only [hits, Finset.mem_filter, Finset.mem_univ, true_and]
  omega

/-- A pair lies at p when 4096·b + t = p. -/
theorem mem_hits {p : Nat} {bt : Fin 256 × Fin 32768} : bt ∈ hits p ↔ bt.1.val * 4096 + bt.2.val = p := by
  simp only [hits, Finset.mem_filter, Finset.mem_univ, true_and]

/-- The sample of a pair lying at p is the sample of its window over p. -/
theorem off_of_mem {p : Fin 1077248} {bt : Fin 256 × Fin 32768} (h : bt ∈ hits p.val) : off bt.1 p = bt.2 := by
  rw [mem_hits] at h
  apply Fin.ext
  show (p.val - bt.1.val * 4096) % 32768 = bt.2.val
  have := bt.2.isLt
  omega

/-- The pairs lying at p are in bijection with the windows lying over p (a pair to its window, a window b to
    (b, off b p)), so a sum over the pairs is a sum over the windows. -/
theorem sum_hits {M : Type*} [AddCommMonoid M] (p : Fin 1077248) (f : Fin 256 → Fin 32768 → M) :
    ∑ bt ∈ hits p.val, f bt.1 bt.2 = ∑ b : Fin 256, if Covers b.val p.val then f b (off b p) else 0 := by
  rw [← Finset.sum_filter]
  refine Finset.sum_nbij' (fun bt => bt.1) (fun b => (b, off b p)) ?_ ?_ ?_ ?_ ?_
  · intro bt hbt
    have h := mem_hits.1 hbt
    have := bt.2.isLt
    refine Finset.mem_filter.2 ⟨Finset.mem_univ _, ?_⟩
    show bt.1.val * 4096 ≤ p.val ∧ p.val < bt.1.val * 4096 + 32768
    omega
  · intro b hb
    have hc : b.val * 4096 ≤ p.val ∧ p.val < b.val * 4096 + 32768 := (Finset.mem_filter.1 hb).2
    rw [mem_hits]
    show b.val * 4096 + (p.val - b.val * 4096) % 32768 = p.val
    omega
  · intro bt hbt
    exact Prod.ext rfl (off_of_mem hbt)
  · intro b _
    rfl
  · intro bt hbt
    show f bt.1 bt.2 = f bt.1 (off bt.1 p)
    rw [off_of_mem hbt]

/-- The reference's count at p, a sum of ones over the pairs at p from zero, is the number of those pairs. -/
theorem count_eq (p : Nat) :
    Ideal.ofBits .f32 0x00000000#32 + ∑ _bt ∈ hits p, Ideal.ofBits .f32 0x3F800000#32
      = (((hits p).card : ℝ) : EReal) := by
  rw [Ideal.ofBits_zero_f32, zero_add, Finset.sum_const, one_eq, ← EReal.coe_nsmul, nsmul_eq_mul, mul_one]

/-- n ≥ 1 copies of s / n add up to s, for a real s. -/
theorem nsmul_div_card (n : ℕ) (hn : n ≠ 0) (s : ℝ) :
    n • Ideal.div (s : EReal) ((n : ℝ) : EReal) = (s : EReal) := by
  have hn' : (n : ℝ) ≠ 0 := Nat.cast_ne_zero.2 hn
  rw [Ideal.div_coe hn', ← EReal.coe_mul, ← EReal.coe_nsmul]
  congr 1
  rw [nsmul_eq_mul]
  field_simp

/-- The identity the certificate rests on. At position p with n ≥ 1 pairs, the reference adds, over those pairs,
    the snapshot divided by n plus the pair's sample divided by 8. The snapshot being real, its n shares add up
    to it; the samples' eighths, re-indexed by window, are the accumulated buffer's sum (no finiteness needed:
    sums over the extended reals split). -/
theorem acc_eq (upd : SUpd.Idx → EReal) (snap : SSnap.Idx → EReal) (c : Fin 2) (p : Fin 1077248) (s : ℝ)
    (hs : snap (ix2 c p) = (s : EReal)) :
    Ideal.ofBits .f32 0x00000000#32 + ∑ bt ∈ hits p.val,
      (Ideal.div (snap (ix2 c p))
          (Ideal.ofBits .f32 0x00000000#32 + ∑ _bt ∈ hits p.val, Ideal.ofBits .f32 0x3F800000#32)
        + Ideal.div (upd (ix3 bt.1 c bt.2)) (Ideal.ofBits .f32 0x41000000#32))
      = accum upd snap c p := by
  have hn : (hits p.val).card ≠ 0 := Finset.card_ne_zero.2 (hits_nonempty p.val p.isLt)
  rw [count_eq, Finset.sum_add_distrib, Finset.sum_const, hs, nsmul_div_card _ hn, Ideal.ofBits_zero_f32, zero_add]
  unfold accum
  rw [hs]
  have h1 : ∑ bt ∈ hits p.val, Ideal.div (upd (ix3 bt.1 c bt.2)) (Ideal.ofBits .f32 0x41000000#32)
      = ∑ b : Fin 256, if Covers b.val p.val then upd (ix3 b c (off b p)) * eighth else 0 :=
    (Finset.sum_congr rfl fun bt _ => div_eight _).trans (sum_hits p fun b t => upd (ix3 b c t) * eighth)
  rw [h1]

end Cert.OverlapAdd

end
-- ==== Proof.KBridge.lean ====
/-
  The kernel's view of the accumulated buffer. The kernel holds the two arrays in rows of 128 lanes: position
  p = 128·r + l. Since l < 128, window b lies over p exactly when 32·b ≤ r < 32·b + 256, and then the sample of
  window b over p is row r − 32·b, lane l. So the snapshot at (r, l) plus what the 256 windows add there is the
  accumulated buffer at p.
-/
import proofs.«129674_j62680752718461_2_alg».proof.Proof.KAcc
import proofs.«129674_j62680752718461_2_alg».proof.Proof.Algebra

noncomputable section

open scoped BigOperators

namespace Cert.OverlapAdd

open Idealize.ShloMosaic Idealize.ShloMosaic.ValueIdx

/-- A window and a row already in range are not changed by the reduction. -/
theorem updIdx_of_lt (b : Fin 256) (ch : Fin 2) (r' : Fin 256) (l : Fin 128) :
    updIdx b.val ch r'.val l = ix4 b ch r' l := by
  unfold updIdx
  have h1 : (⟨b.val % 256, Nat.mod_lt _ (by decide)⟩ : Fin 256) = b := Fin.ext (Nat.mod_eq_of_lt b.isLt)
  have h2 : (⟨r'.val % 256, Nat.mod_lt _ (by decide)⟩ : Fin 256) = r' := Fin.ext (Nat.mod_eq_of_lt r'.isLt)
  rw [h1, h2]

/-- Window b's term at row r, lane l, in the kernel's layout, is its term at position 128·r + l. -/
theorem winTerm_eq (upd : SUpd.Idx → EReal) (A0 : SUpd4.Idx → EReal)
    (hA0 : ∀ (b : Fin 256) (ch : Fin 2) (r' : Fin 256) (l : Fin 128),
      A0 (ix4 b ch r' l) = upd (ix3 b ch ⟨r'.val * 128 + l.val, by have := r'.isLt; have := l.isLt; omega⟩))
    (ch : Fin 2) (r : Fin 8416) (l : Fin 128) (hP : r.val * 128 + l.val < 1077248) (b : Fin 256) :
    (if b.val * 32 ≤ r.val ∧ r.val < b.val * 32 + 256
        then A0 (updIdx b.val ch (r.val - b.val * 32) l) * eighth else 0)
      = (if Covers b.val (⟨r.val * 128 + l.val, hP⟩ : Fin 1077248).val
        then upd (ix3 b ch (off b ⟨r.val * 128 + l.val, hP⟩)) * eighth else 0) := by
  have hb := b.isLt
  have hl := l.isLt
  have hr := r.isLt
  by_cases hc : b.val * 32 ≤ r.val ∧ r.val < b.val * 32 + 256
  · have hc' : Covers b.val (⟨r.val * 128 + l.val, hP⟩ : Fin 1077248).val := by
      show b.val * 4096 ≤ r.val * 128 + l.val ∧ r.val * 128 + l.val < b.val * 4096 + 32768
      omega
    have hrow : r.val - b.val * 32 < 256 := by omega
    have hlt : (r.val - b.val * 32) * 128 + l.val < 32768 := by omega
    have e1 : updIdx b.val ch (r.val - b.val * 32) l = ix4 b ch ⟨r.val - b.val * 32, hrow⟩ l :=
      updIdx_of_lt b ch ⟨r.val - b.val * 32, hrow⟩ l
    have e2 : (⟨(r.val - b.val * 32) * 128 + l.val, hlt⟩ : Fin 32768) = off b ⟨r.val * 128 + l.val, hP⟩ := by
      apply Fin.ext
      show (r.val - b.val * 32) * 128 + l.val = (r.val * 128 + l.val - b.val * 4096) % 32768
      omega
    rw [if_pos hc, if_pos hc', e1, hA0]
    exact congrArg (fun t => upd (ix3 b ch t) * eighth) e2
  · have hc' : ¬ Covers b.val (⟨r.val * 128 + l.val, hP⟩ : Fin 1077248).val := by
      show ¬ (b.val * 4096 ≤ r.val * 128 + l.val ∧ r.val * 128 + l.val < b.val * 4096 + 32768)
      omega
    rw [if_neg hc, if_neg hc']

/-- The snapshot at row r, lane l, plus what the 256 windows add there, is the accumulated buffer at 128·r + l. -/
theorem winSum_eq_accum (upd : SUpd.Idx → EReal) (snap : SSnap.Idx → EReal) (A0 : SUpd4.Idx → EReal)
    (A1 : SSnap3.Idx → EReal)
    (hA0 : ∀ (b : Fin 256) (ch : Fin 2) (r' : Fin 256) (l : Fin 128),
      A0 (ix4 b ch r' l) = upd (ix3 b ch ⟨r'.val * 128 + l.val, by have := r'.isLt; have := l.isLt; omega⟩))
    (hA1 : ∀ (ch : Fin 2) (r : Fin 8416) (l : Fin 128),
      A1 (ix3 ch r l) = snap (ix2 ch ⟨r.val * 128 + l.val, by have := r.isLt; have := l.isLt; omega⟩))
    (ch : Fin 2) (r : Fin 8416) (l : Fin 128) :
    A1 (ix3 ch r l) + winSum A0 ch 256 r.val l
      = accum upd snap ch ⟨r.val * 128 + l.val, by have := r.isLt; have := l.isLt; omega⟩ := by
  have hP : r.val * 128 + l.val < 1077248 := by have := r.isLt; have := l.isLt; omega
  unfold winSum accum
  rw [hA1 ch r l, Finset.sum_range]
  exact congrArg (snap (ix2 ch ⟨r.val * 128 + l.val, hP⟩) + ·)
    (Finset.sum_congr rfl fun b _ => winTerm_eq upd A0 hA0 ch r l hP b)

end Cert.OverlapAdd

end
-- ==== Proof.KRun.lean ====
/-
  The kernel program's run, read: both results are the specification's functions of the two argument arrays.

  After the region the first result is flattened and given a leading unit axis, the second is flattened: position p
  reads row p / 128, lane p % 128 of the region's result arrays. Those hold, at row r and lane l, the snapshot plus
  what all 256 windows add there, which is the accumulated buffer at position 128·r + l; and 128·(p / 128) + p % 128 = p.
  The second result's rows 0 … 223 are the accumulated rows 8192 … 8415, that is positions 1048576 + p for p < 28672.
-/
import proofs.«129674_j62680752718461_2_alg».proof.Proof.KFinal
import proofs.«129674_j62680752718461_2_alg».proof.Proof.KBridge
import proofs.«129674_j62680752718461_2_alg».proof.Proof.KHost

set_option maxRecDepth 16384

noncomputable section

open scoped BigOperators

namespace Cert.KernelIdeal.Val

open Cert.KernelIdeal Cert.KernelIdeal.Gen Cert.KernelIdeal.GenP Cert.OverlapAdd
open Idealize.ShloMosaic Idealize.ShloMosaic.TcCoe Idealize.ShloMosaic.ValueIdx Idealize.SL.Sem

variable (m : (ℓ : Loc nD τ sig) → Buf (Elt Ideal) ℓ)

/-! ## The kernel program's run, its results named by the specification -/

variable (ρ : Dev nD → PrngReg)

/-- The update array the region finds is the argument re-laid; the snapshot likewise. -/
theorem arr0_apply (c : Dev nD) (b : Fin 256) (ch : Fin 2) (r' : Fin 256) (l : Fin 128) :
    arr0 m c (ix4 b ch r' l)
      = m ((c : Thread nD τ).loc main_arg0)
          (ix3 b ch ⟨r'.val * 128 + l.val, by have := r'.isLt; have := l.isLt; omega⟩) :=
  V_v0_apply m c b ch r' l

theorem arr1_apply (c : Dev nD) (ch : Fin 2) (r : Fin 8416) (l : Fin 128) :
    arr1 m c (ix3 ch r l)
      = m ((c : Thread nD τ).loc main_arg1)
          (ix2 ch ⟨r.val * 128 + l.val, by have := r.isLt; have := l.isLt; omega⟩) :=
  V_v1_apply m c ch r l

/-- Row r, lane l of channel ch, with all 256 windows in, is the accumulated buffer at position 128·r + l. -/
theorem row_eq_accum (c : Dev nD) (ch : Fin 2) (r : Fin 8416) (l : Fin 128) :
    arr1 m c (ix3 ch r l) + winSum (arr0 m c) ch 256 r.val l
      = accum (m ((c : Thread nD τ).loc main_arg0)) (m ((c : Thread nD τ).loc main_arg1)) ch
          ⟨r.val * 128 + l.val, by have := r.isLt; have := l.isLt; omega⟩ :=
  winSum_eq_accum (m ((c : Thread nD τ).loc main_arg0)) (m ((c : Thread nD τ).loc main_arg1)) (arr0 m c) (arr1 m c)
    (fun b ch r' l => arr0_apply m c b ch r' l) (fun ch r l => arr1_apply m c ch r l) ch r l

/-- The first result after the lines behind the region is the specification's. -/
theorem v4_eq (c : Dev nD) :
    Pipeline.afterTail₀ cfgs (dats m) 0 (V0 m) [hostOps1] c main_v4
      = outSpec (m ((c : Thread nD τ).loc main_arg0)) (m ((c : Thread nD τ).loc main_arg1)) := by
  funext i
  obtain ⟨u, ch, p, rfl⟩ : ∃ (u : Fin 1) (ch : Fin 2) (p : Fin 1048576), i = ix3 u ch p :=
    ⟨i 0, i 1, i 2, eq_ix3 i⟩
  have hp := p.isLt
  rw [tail_v4 m (dats m) c u ch p, final2 m c]
  refine (row_eq_accum m c ch ⟨p.val / 128, by omega⟩ ⟨p.val % 128, Nat.mod_lt _ (by decide)⟩).trans ?_
  exact congrArg (accum (m ((c : Thread nD τ).loc main_arg0)) (m ((c : Thread nD τ).loc main_arg1)) ch)
    (Fin.ext (by show p.val / 128 * 128 + p.val % 128 = p.val; omega))

/-- The second result after the lines behind the region is the specification's. -/
theorem v5_eq (c : Dev nD) :
    Pipeline.afterTail₀ cfgs (dats m) 0 (V0 m) [hostOps1] c main_v5
      = snapSpec (m ((c : Thread nD τ).loc main_arg0)) (m ((c : Thread nD τ).loc main_arg1)) := by
  funext i
  obtain ⟨ch, p, rfl⟩ : ∃ (ch : Fin 2) (p : Fin 1077248), i = ix2 ch p := ⟨i 0, i 1, eq_ix2 i⟩
  have hp := p.isLt
  rw [tail_v5 m (dats m) c ch p, final3 m c]
  unfold Z3 snapSpec
  refine dite_congr (propext (by show p.val / 128 < 224 ↔ p.val < 28672; omega)) (fun h => ?_) (fun _ => rfl)
  have h' : p.val < 28672 := h
  refine (row_eq_accum m c ch ⟨p.val / 128 + 8192, by omega⟩ ⟨p.val % 128, Nat.mod_lt _ (by decide)⟩).trans ?_
  exact congrArg (accum (m ((c : Thread nD τ).loc main_arg0)) (m ((c : Thread nD τ).loc main_arg1)) ch)
    (Fin.ext (by show (p.val / 128 + 8192) * 128 + p.val % 128 = p.val + 1048576; omega))

/-- THE RUN of the kernel program: both results are the specification's functions of the argument arrays, and the
    arguments end as they were. -/
theorem run : θ_run defs (onTc (τ := τ) (main (F := Ideal))) ⟨m, fun _ => 0, ρ⟩ fun r => ∀ c : Dev nD,
      r.2.mem ((c.tc : Thread nD τ).loc main_v4)
        = outSpec (m ((c.tc : Thread nD τ).loc main_arg0)) (m ((c.tc : Thread nD τ).loc main_arg1))
      ∧ r.2.mem ((c.tc : Thread nD τ).loc main_v5)
        = snapSpec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (v4_eq m c),
     ((h c).2 main_v5 (Pipeline.mem_restRefs_of main_v5 (by decide) (by decide))).trans (v5_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Val

end
-- ==== Proof.RefScatter.lean ====
/-
  The reference's second scatter-add, read at an index.

  The scatter's operand is the zero buffer (channel, position); its indices are the array idx[b, t, 0]; its updates are
  indexed (channel, window, sample). With update window axis 0 going to the operand's channel axis, the position axis
  inserted, and the one component of each start index going to the position axis, update (c', b, t) lands at
  (c', idx[b, t, 0]), the index read signed and not clamped. When idx[b, t] is the word of 4096·b + t, a position
  p of channel c therefore receives exactly the updates (c, b, t) with 4096·b + t = p.
-/
import proofs.«129674_j62680752718461_2_alg».proof.Proof.Gen.ReferenceIdeal.Read
import proofs.«129674_j62680752718461_2_alg».proof.Proof.Spec

noncomputable section

open scoped BigOperators

namespace Cert.OverlapAdd.Ref.Scatter

open Idealize.ShloMosaic Idealize.ShloMosaic.ValueIdx Cert.ReferenceIdeal Cert.ReferenceIdeal.Gen Cert.ReferenceIdeal.Read Cert.OverlapAdd

/-- The scatter's dimension numbers. -/
abbrev sd := scatter_S2x1077248_S256x32768x1_S2x256x32768_0_1_1_2

/-- The scatter-indices index update (c', b, t) reads its one start component at: (b, t, 0). -/
theorem siIdx_eq (j : S2x256x32768.Idx) :
    sd.siIdx j ⟨List.idxOf (1 : Fin 2) sd.scatterDimsToOperandDims,
      List.idxOf_lt_length_iff.2 (List.mem_singleton.mpr rfl)⟩ = ix3 (j 1) (j 2) (0 : Fin 1) := by
  funext b; refine Fin.ext ?_
  match b with
  | ⟨0, _⟩ => rfl
  | ⟨1, _⟩ => rfl
  | ⟨2, _⟩ => rfl

/-- No start component goes to the channel axis. -/
theorem start0 (j : S2x256x32768.Idx) (idx : IVec S256x32768x1 32) : sd.start j idx 0 = 0 := by
  unfold ScatterDims.start
  rw [dif_neg (by decide)]

/-- The start on the position axis is the scatter index at (b, t, 0), read signed. -/
theorem start1 (j : S2x256x32768.Idx) (idx : IVec S256x32768x1 32) :
    sd.start j idx 1 = (idx (ix3 (j 1) (j 2) (0 : Fin 1))).toInt := by
  unfold ScatterDims.start
  rw [dif_pos (show (1 : Fin 2) ∈ sd.scatterDimsToOperandDims from List.mem_singleton.mpr rfl)]
  exact congrArg (fun k => (idx k).toInt) (siIdx_eq j)

/-- The window coordinate on the channel axis is the update's channel. -/
theorem window0 (j : S2x256x32768.Idx) : sd.window j 0 = (j 0).val := by
  unfold ScatterDims.window
  rw [dif_pos (by decide)]
  rfl

/-- The position axis is inserted: its window coordinate is 0. -/
theorem window1 (j : S2x256x32768.Idx) : sd.window j 1 = 0 := by
  unfold ScatterDims.window
  rw [dif_neg (by decide)]

/-- The word of a number below 2³¹ reads, signed, as that number. -/
theorem toInt_ofNat_small (n : Nat) (hn : n < 1077248) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- An update index whose scatter index is the word of a position inside the buffer lands at that position of its own channel. -/
theorem resultIdx_of (idx : IVec S256x32768x1 32) (j : S2x256x32768.Idx) (n : Nat) (hn : n < 1077248)
    (h : idx (ix3 (j 1) (j 2) (0 : Fin 1)) = BitVec.ofNat 32 n) :
    sd.resultIdx? j idx = some (ix2 (j 0) (⟨n, hn⟩ : Fin 1077248)) := by
  have hI := toInt_ofNat_small n hn
  have h0 : (j 0).val < 2 := (j 0).isLt
  have e0 : sd.start j idx 0 + (sd.window j 0 : Int) = ((j 0).val : Int) := by
    rw [start0, window0]; simp
  have e1 : sd.start j idx 1 + (sd.window j 1 : Int) = (n : Int) := by
    rw [start1, window1, h, hI]; simp
  have hall : ∀ a, 0 ≤ sd.start j idx a + (sd.window j a : Int) ∧
      sd.start j idx a + (sd.window j a : Int) < S2x1077248.size a := by
    intro a
    match a with
    | ⟨0, _⟩ =>
      show 0 ≤ sd.start j idx 0 + (sd.window j 0 : Int) ∧ sd.start j idx 0 + (sd.window j 0 : Int) < ((2 : Nat) : Int)
      rw [e0]; omega
    | ⟨1, _⟩ =>
      show 0 ≤ sd.start j idx 1 + (sd.window j 1 : Int) ∧ sd.start j idx 1 + (sd.window j 1 : Int) < ((1077248 : Nat) : Int)
      rw [e1]; omega
  unfold ScatterDims.resultIdx?
  rw [dif_pos hall]
  congr 1
  funext a
  refine Fin.ext ?_
  match a with
  | ⟨0, _⟩ =>
    show (sd.start j idx 0 + (sd.window j 0 : Int)).toNat = (j 0).val
    rw [e0]; simp
  | ⟨1, _⟩ =>
    show (sd.start j idx 1 + (sd.window j 1 : Int)).toNat = n
    rw [e1]; simp

/-- The scatter indices at (b, t, 0) are the index array's entry (b, t). -/
theorem v46_at (hidx : ∀ (b : Fin 256) (t : Fin 32768), val_main_v45 (F := Ideal) (ix2 b t) = BitVec.ofNat 32 (b.val * 4096 + t.val))
    (b : Fin 256) (t : Fin 32768) :
    val_main_v46 (F := Ideal) (ix3 b t (0 : Fin 1)) = BitVec.ofNat 32 (b.val * 4096 + t.val) := by
  rw [val_main_v46_apply]
  have e : idx_main_v46 (ix3 b t (0 : Fin 1)) = ix2 b t := by
    funext a; match a with | ⟨0, _⟩ => rfl | ⟨1, _⟩ => rfl
  rw [e, hidx]

/-- Two rank-2 indices are equal only when their coordinates are. -/
theorem ix2_inj {n0 n1 : Nat} {a a' : Fin n0} {b b' : Fin n1} (h : ix2 a b = ix2 a' b') : a = a' ∧ b = b' :=
  ⟨congrFun h 0, congrFun h 1⟩

/-- The accumulating scatter over the extended reals, read at an index: the operand's element plus the sum of the updates that land there. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

end Cert.OverlapAdd.Ref.Scatter

namespace Cert.OverlapAdd.Ref

open Idealize.ShloMosaic Idealize.ShloMosaic.ValueIdx Cert.ReferenceIdeal Cert.ReferenceIdeal.Gen Cert.ReferenceIdeal.Read Cert.OverlapAdd
open Cert.OverlapAdd.Ref.Scatter

/-- THE SECOND SCATTER AT (c, p): zero plus the sum, over the (window, sample) pairs lying at position p, of the
    scattered array at (c, window, sample). -/
theorem scatter47 (x0 : (⟨S256x2x32768, .f32⟩ : BufTy).Contents (Elt Ideal)) (x1 : (⟨S2x1077248, .f32⟩ : BufTy).Contents (Elt Ideal))
    (c : Fin 2) (p : Fin 1077248)
    (hidx : ∀ (b : Fin 256) (t : Fin 32768), val_main_v45 (F := Ideal) (ix2 b t) = BitVec.ofNat 32 (b.val * 4096 + t.val)) :
    val_main_v47 (F := Ideal) x0 x1 (ix2 c p) = Ideal.ofBits .f32 0x00000000#32 +
      ∑ bt ∈ hits p.val, val_main_v39 (F := Ideal) x0 x1 (ix3 c bt.1 bt.2) := by
  have hres : ∀ (c' : Fin 2) (b : Fin 256) (t : Fin 32768) (hn : b.val * 4096 + t.val < 1077248),
      sd.resultIdx? (ix3 c' b t) (val_main_v46 (F := Ideal)) = some (ix2 c' (⟨b.val * 4096 + t.val, hn⟩ : Fin 1077248)) :=
    fun c' b t hn => resultIdx_of _ (ix3 c' b t) _ hn (v46_at hidx b t)
  have hz : val_main_v40 (F := Ideal) (ix2 c p) = Ideal.ofBits .f32 0x00000000#32 := by
    rw [val_main_v40_apply, val_main_cst_8_apply]; rfl
  unfold val_main_v47
  rw [scatterAdd_apply, hz]
  refine congrArg (fun s => Ideal.ofBits .f32 0x00000000#32 + s) ?_
  refine Finset.sum_nbij' (fun j => ((j 1, j 2) : Fin 256 × Fin 32768)) (fun bt => ix3 c bt.1 bt.2) ?_ ?_ ?_ ?_ ?_
  · intro j hj
    obtain ⟨c', b, t, rfl⟩ : ∃ (c' : Fin 2) (b : Fin 256) (t : Fin 32768), j = ix3 c' b t := ⟨j 0, j 1, j 2, eq_ix3 j⟩
    rw [Finset.mem_filter] at hj
    have hn : b.val * 4096 + t.val < 1077248 := by omega
    rw [hres c' b t hn] at hj
    have h2 := ix2_inj (Option.some.inj hj.2)
    show (b, t) ∈ hits p.val
    unfold hits
    rw [Finset.mem_filter]
    refine ⟨Finset.mem_univ _, ?_⟩
    show b.val * 4096 + t.val = p.val
    exact congrArg Fin.val h2.2
  · intro bt hbt
    unfold hits at hbt
    rw [Finset.mem_filter] at hbt
    rw [Finset.mem_filter]
    refine ⟨Finset.mem_univ _, ?_⟩
    have hn : bt.1.val * 4096 + bt.2.val < 1077248 := by omega
    rw [hres c bt.1 bt.2 hn]
    congr 2
    exact Fin.ext hbt.2
  · intro j hj
    obtain ⟨c', b, t, rfl⟩ : ∃ (c' : Fin 2) (b : Fin 256) (t : Fin 32768), j = ix3 c' b t := ⟨j 0, j 1, j 2, eq_ix3 j⟩
    rw [Finset.mem_filter] at hj
    have hn : b.val * 4096 + t.val < 1077248 := by omega
    rw [hres c' b t hn] at hj
    have h2 := ix2_inj (Option.some.inj hj.2)
    show ix3 c b t = ix3 c' b t
    rw [h2.1]
  · intro bt _
    rfl
  · intro j hj
    obtain ⟨c', b, t, rfl⟩ : ∃ (c' : Fin 2) (b : Fin 256) (t : Fin 32768), j = ix3 c' b t := ⟨j 0, j 1, j 2, eq_ix3 j⟩
    rw [Finset.mem_filter] at hj
    have hn : b.val * 4096 + t.val < 1077248 := by omega
    rw [hres c' b t hn] at hj
    have h2 := ix2_inj (Option.some.inj hj.2)
    show val_main_v39 (F := Ideal) x0 x1 (ix3 c' b t) = val_main_v39 (F := Ideal) x0 x1 (ix3 c b t)
    rw [h2.1]

end Cert.OverlapAdd.Ref

end
-- ==== Proof.RefStages.lean ====
/-
  The reference program's index arithmetic, read at an index.

  The window index array is idx[b, t] = 4096 * b + t for b < 256, t < 32768. Every entry is below 2^31, so the
  32-bit multiplication and addition that compute it do not wrap, the signed comparison against zero is false, and
  each "add the extent to a negative index" select returns the index unchanged. The flattened array (row major)
  holds at position j the entry of row j / 32768 and column j % 32768.
-/
import proofs.«129674_j62680752718461_2_alg».proof.Proof.Gen.ReferenceIdeal.Read
import proofs.«129674_j62680752718461_2_alg».proof.Proof.Spec
import Idealize.ShloMosaic.Lib.ValueIdx
import Idealize.ShloMosaic.Lib.Pipeline.Value

noncomputable section

open scoped BigOperators

namespace Cert.OverlapAdd.Ref

open Cert.ReferenceIdeal Cert.ReferenceIdeal.Read Cert.OverlapAdd Idealize.ShloMosaic Idealize.ShloMosaic.ValueIdx

/-- A natural number below 2^31, written as a 32-bit word, reads signed as itself. -/
theorem ofNat_toInt (n : Nat) (h : n < 2147483648) : (BitVec.ofNat 32 n).toInt = (n : Int) := by
  rw [BitVec.toInt_eq_toNat_cond]
  simp only [BitVec.toNat_ofNat]
  have : n % 2 ^ 32 = n := Nat.mod_eq_of_lt (by omega)
  rw [this]
  split <;> omega

/-- A natural number below 2^31, written as a 32-bit word and read back signed, is itself. -/
theorem ofNat_toInt_toNat (n : Nat) (h : n < 2147483648) : (BitVec.ofNat 32 n).toInt.toNat = n := by
  rw [ofNat_toInt n h]; rfl

/-- The word of a natural number below 2^31 is not negative: the signed comparison against zero answers 0. -/
theorem slt_zero (n : Nat) (h : n < 2147483648) : IntOp.cmpi .slt (BitVec.ofNat 32 n) 0#32 = 0#1 := by
  have hs : (BitVec.ofNat 32 n).slt 0#32 = false := by
    unfold BitVec.slt
    rw [decide_eq_false_iff_not, ofNat_toInt n h]
    show ¬ ((n : Int) < 0)
    omega
  show BitVec.ofBool ((BitVec.ofNat 32 n).slt 0#32) = 0#1
  rw [hs]; rfl

/-- Every entry of the window index array is below 2^31. -/
theorem idx_lt (b : Fin 256) (t : Fin 32768) : b.val * 4096 + t.val < 2147483648 := by
  have := b.isLt; have := t.isLt; omega

/-- The window index array at (b, t) is the word of 4096 * b + t. -/
theorem idx_val (b : Fin 256) (t : Fin 32768) :
    val_main_v8 (F := Ideal) (ix2 b t) = BitVec.ofNat 32 (b.val * 4096 + t.val) := by
  rw [val_main_v8_apply, val_main_v6_apply, val_main_v1_apply, val_main_v0_apply,
    val_main_v7_apply, val_main_v5_apply, val_main_v4_apply, val_main_v2_apply, val_main_v3_apply, val_main_c_apply]
  show IntOp.addi (BitVec.ofNat 32 t.val) (IntOp.muli (BitVec.ofNat 32 b.val) (BitVec.ofNat 32 4096)) = _
  unfold IntOp.addi IntOp.muli
  rw [← BitVec.ofNat_mul, ← BitVec.ofNat_add, Nat.add_comm]

/-- The first "negative index wraps" select leaves the window index unchanged. -/
theorem idx_val_v23 (b : Fin 256) (t : Fin 32768) :
    val_main_v23 (F := Ideal) (ix2 b t) = BitVec.ofNat 32 (b.val * 4096 + t.val) := by
  rw [val_main_v23_apply, val_main_v20_apply, val_main_v19_apply, val_main_c_3_apply, idx_val,
    slt_zero _ (idx_lt b t), select_zero]

/-- The second "negative index wraps" select leaves the window index unchanged. -/
theorem idx_val_v33 (b : Fin 256) (t : Fin 32768) :
    val_main_v33 (F := Ideal) (ix2 b t) = BitVec.ofNat 32 (b.val * 4096 + t.val) := by
  rw [val_main_v33_apply, val_main_v30_apply, val_main_v29_apply, val_main_c_6_apply, idx_val,
    slt_zero _ (idx_lt b t), select_zero]

/-- The third "negative index wraps" select leaves the window index unchanged. -/
theorem idx_val_v45 (b : Fin 256) (t : Fin 32768) :
    val_main_v45 (F := Ideal) (ix2 b t) = BitVec.ofNat 32 (b.val * 4096 + t.val) := by
  rw [val_main_v45_apply, val_main_v42_apply, val_main_v41_apply, val_main_c_9_apply, idx_val,
    slt_zero _ (idx_lt b t), select_zero]

/-- The flattened window index array is row major: position j holds the entry of row j / 32768, column j % 32768. -/
theorem idx_flat (j : Fin 8388608) :
    val_main_v10 (F := Ideal) (ix1 j) = BitVec.ofNat 32 ((j.val / 32768) * 4096 + j.val % 32768) := by
  have hj := j.isLt
  have hrow : j.val / 32768 < 256 := by omega
  have hcol : j.val % 32768 < 32768 := Nat.mod_lt _ (by decide)
  have hi : idx_main_v10 (ix1 j) = ix2 (⟨j.val / 32768, hrow⟩ : Fin 256) (⟨j.val % 32768, hcol⟩ : Fin 32768) := by
    funext a; match a with | ⟨0, _⟩ => rfl | ⟨1, _⟩ => rfl
  rw [val_main_v10_apply, hi, idx_val]

/-- The flat "negative index wraps" select leaves the flattened window index unchanged. -/
theorem idx_val_v15 (j : Fin 8388608) :
    val_main_v15 (F := Ideal) (ix1 j) = BitVec.ofNat 32 ((j.val / 32768) * 4096 + j.val % 32768) := by
  have hj := j.isLt
  rw [val_main_v15_apply, val_main_v12_apply, val_main_v11_apply, val_main_c_0_apply, idx_flat,
    slt_zero _ (by omega), select_zero]

end Cert.OverlapAdd.Ref

end
-- ==== Proof.RefStage39.lean ====
/-
  The array the reference scatters, read at an index.

  At (channel c, window b, sample t) it is the windowed snapshot divided by the windowed counts, plus the transposed
  update divided by eight. The windowed snapshot is a gather of the snapshot at the index array: the channel axis is
  an offset axis, the position axis is collapsed and indexed by idx[b, t, 0], read signed and clamped to the last
  position; idx[b, t] being the word of 4096·b + t, which is at most the last position, it reads snapshot[c, 4096·b + t].
  The windowed counts are the flat gather of the counts at the same index array, broadcast over the channels:
  counts[4096·b + t]. The transposed update at (c, b, t) is update[b, c, t].
-/
import proofs.«129674_j62680752718461_2_alg».proof.Proof.RefStages

noncomputable section

open scoped BigOperators

namespace Cert.OverlapAdd.Ref

open Idealize.ShloMosaic Idealize.ShloMosaic.ValueIdx Cert.ReferenceIdeal Cert.ReferenceIdeal.Gen Cert.ReferenceIdeal.Read Cert.OverlapAdd

namespace Stage39

/-- The largest window index is the last position. -/
theorem pos_lt (b : Fin 256) (t : Fin 32768) : b.val * 4096 + t.val < 1077248 := by
  have := b.isLt; have := t.isLt; omega

/-- The update array, transposed and divided by eight, at (c, b, t). -/
theorem v28_at (x0 : (⟨S256x2x32768, .f32⟩ : BufTy).Contents (Elt Ideal)) (c : Fin 2) (b : Fin 256) (t : Fin 32768) :
    val_main_v28 (F := Ideal) x0 (ix3 c b t) = Ideal.div (x0 (ix3 b c t)) (Ideal.ofBits .f32 0x41000000#32) := by
  rw [val_main_v28_apply, val_main_v26_apply, val_main_v27_apply, val_main_cst_5_apply]
  have e : idx_main_v26 (ix3 c b t) = ix3 b c t := by
    funext a; match a with | ⟨0, _⟩ => rfl | ⟨1, _⟩ => rfl | ⟨2, _⟩ => rfl
  rw [e]
  rfl

/-- The windowed counts, broadcast over the channels, at (c, b, t): the windowed counts at (b, t). -/
theorem v37_at (c : Fin 2) (b : Fin 256) (t : Fin 32768) :
    val_main_v37 (F := Ideal) (ix3 c b t) = val_main_v25 (F := Ideal) (ix2 b t) := by
  rw [val_main_v37_apply, val_main_v36_apply]
  have e : idx_main_v36 (idx_main_v37 (ix3 c b t)) = ix2 b t := by
    funext a; match a with | ⟨0, _⟩ => rfl | ⟨1, _⟩ => rfl
  rw [e]

/-- The windowed counts at (b, t): the counts at position 4096·b + t. -/
theorem v25_at (b : Fin 256) (t : Fin 32768) :
    val_main_v25 (F := Ideal) (ix2 b t) = val_main_v18 (F := Ideal) (ix1 (⟨b.val * 4096 + t.val, pos_lt b t⟩ : Fin 1077248)) := by
  unfold val_main_v25
  generalize val_main_v18 (F := Ideal) = y
  have e := gather_take_apply (N := 1077248) (R := 256) (C := 32768) (by decide)
    gather_S1077248_S256x32768x1_S256x32768_n_0_n_n_0_2_1.wf y (val_main_v24 (F := Ideal)) (ix2 b t)
  refine e.trans ?_
  refine congrArg (fun k => y (ix1 k)) (Fin.ext ?_)
  show min (val_main_v24 (F := Ideal) (takeIdx (ix2 b t))).toInt.toNat (1077248 - 1) = b.val * 4096 + t.val
  rw [val_main_v24_apply]
  have e2 : idx_main_v24 (takeIdx (ix2 b t)) = ix2 b t := by
    funext a; match a with | ⟨0, _⟩ => rfl | ⟨1, _⟩ => rfl
  rw [e2, idx_val_v23, ofNat_toInt_toNat _ (idx_lt b t)]
  have := pos_lt b t
  omega

/-- The rank-2 gather's dimension numbers: the channel axis an offset axis, the position axis collapsed and indexed. -/
abbrev gd := gather_S2x1077248_S256x32768x1_S2x256x32768_0_1_n_n_1_2_21

/-- The start-indices index result (c, b, t) reads its one start component at: (b, t, 0). -/
theorem gd_siIdx (j : S2x256x32768.Idx) :
    gd.siIdx j ⟨List.idxOf (1 : Fin 2) gd.startIndexMap,
      List.idxOf_lt_length_iff.2 (List.mem_singleton.mpr rfl)⟩ = ix3 (j 1) (j 2) (0 : Fin 1) := by
  funext b; refine Fin.ext ?_
  match b with
  | ⟨0, _⟩ => rfl
  | ⟨1, _⟩ => rfl
  | ⟨2, _⟩ => rfl

/-- No start component goes to the channel axis. -/
theorem gd_start0 (j : S2x256x32768.Idx) (idx : IVec S256x32768x1 32) : gd.start j idx 0 = 0 := by
  unfold GatherDims.start
  rw [dif_neg (by decide)]

/-- The start on the position axis: the start index at (b, t, 0), read signed and clamped to the last position. -/
theorem gd_start1 (j : S2x256x32768.Idx) (idx : IVec S256x32768x1 32) :
    gd.start j idx 1 = min (idx (ix3 (j 1) (j 2) (0 : Fin 1))).toInt.toNat (1077248 - 1) := by
  unfold GatherDims.start
  rw [dif_pos (show (1 : Fin 2) ∈ gd.startIndexMap from List.mem_singleton.mpr rfl)]
  exact congrArg (fun k => min (idx k).toInt.toNat (1077248 - 1)) (gd_siIdx j)

/-- The offset coordinate on the channel axis is the result's channel. -/
theorem gd_off0 (j : S2x256x32768.Idx) : gd.offCoord j 0 = (j 0).val := by
  unfold GatherDims.offCoord
  rw [dif_pos (by decide)]
  rfl

/-- The windowed snapshot at (c, b, t): the snapshot at channel c, position 4096·b + t. -/
theorem v35_at (x1 : (⟨S2x1077248, .f32⟩ : BufTy).Contents (Elt Ideal)) (c : Fin 2) (b : Fin 256) (t : Fin 32768) :
    val_main_v35 (F := Ideal) x1 (ix3 c b t) = x1 (ix2 c (⟨b.val * 4096 + t.val, pos_lt b t⟩ : Fin 1077248)) := by
  unfold val_main_v35 Host.gather
  refine congrArg x1 ?_
  funext a
  refine Fin.ext ?_
  match a with
  | ⟨0, _⟩ =>
    show gd.start (ix3 c b t) (val_main_v34 (F := Ideal)) 0 + gd.batchCoord (ix3 c b t) 0 + gd.offCoord (ix3 c b t) 0 = c.val
    rw [GatherDims.batchCoord_eq_zero _ _ _ List.not_mem_nil, gd_start0, gd_off0]
    simp
  | ⟨1, _⟩ =>
    show gd.start (ix3 c b t) (val_main_v34 (F := Ideal)) 1 + gd.batchCoord (ix3 c b t) 1 + gd.offCoord (ix3 c b t) 1
      = b.val * 4096 + t.val
    rw [GatherDims.batchCoord_eq_zero _ _ _ List.not_mem_nil, GatherDims.offCoord_eq_zero _ _ _ (by decide), gd_start1]
    show min (val_main_v34 (F := Ideal) (ix3 b t (0 : Fin 1))).toInt.toNat (1077248 - 1) + 0 + 0 = b.val * 4096 + t.val
    rw [val_main_v34_apply]
    have e2 : idx_main_v34 (ix3 b t (0 : Fin 1)) = ix2 b t := by
      funext a; match a with | ⟨0, _⟩ => rfl | ⟨1, _⟩ => rfl
    rw [e2, idx_val_v33, ofNat_toInt_toNat _ (idx_lt b t)]
    have := pos_lt b t
    omega

end Stage39

open Stage39 in
/-- THE SCATTERED ARRAY AT (c, b, t): the snapshot at (c, 4096·b + t) divided by the counts there, plus the update's
    sample (b, c, t) divided by eight. -/
theorem stage39 (x0 : (⟨S256x2x32768, .f32⟩ : BufTy).Contents (Elt Ideal)) (x1 : (⟨S2x1077248, .f32⟩ : BufTy).Contents (Elt Ideal))
    (c : Fin 2) (b : Fin 256) (t : Fin 32768) (h : b.val * 4096 + t.val < 1077248) :
    val_main_v39 (F := Ideal) x0 x1 (ix3 c b t) =
      Ideal.div (x1 (ix2 c (⟨b.val * 4096 + t.val, h⟩ : Fin 1077248)))
          (val_main_v18 (F := Ideal) (ix1 (⟨b.val * 4096 + t.val, h⟩ : Fin 1077248))) +
        Ideal.div (x0 (ix3 b c t)) (Ideal.ofBits .f32 0x41000000#32) := by
  rw [val_main_v39_apply, val_main_v38_apply, v28_at, v37_at, v25_at, v35_at]
  rfl

end Cert.OverlapAdd.Ref

end
-- ==== Proof.RefCounts.lean ====
/-
  The overlap counts of the reference program, read at a position.

  The reference scatters the constant one, once per entry (b, t) of the window index array, into a buffer of zeros at
  position idx[b, t] = 4096 * b + t, adding where entries coincide. Over the extended reals the buffer at position p
  is therefore zero plus a sum of ones, one for each pair (b, t) with 4096 * b + t = p.

  The scatter takes the flattened index array: flat position k holds the entry of row k / 32768, column k % 32768.
  Each start index is read signed and is below the buffer's extent, so every update lands, and it lands at p exactly
  when (k / 32768) * 4096 + k % 32768 = p. Splitting k into (k / 32768, k % 32768) is a bijection from the flat
  positions onto the pairs (b, t), which carries the updates landing at p onto the pairs with 4096 * b + t = p.
-/
import proofs.«129674_j62680752718461_2_alg».proof.Proof.RefStages

noncomputable section

open scoped BigOperators

namespace Cert.OverlapAdd.Ref

open Cert.ReferenceIdeal Cert.ReferenceIdeal.Read Cert.OverlapAdd Idealize.ShloMosaic Idealize.ShloMosaic.ValueIdx

/-- The accumulating scatter over the extended reals, read at an index: the operand's element plus the sum of the
    updates that land on it. -/
theorem scatterAdd_apply {s si u : Shape} {w : Nat} {φ : FTy} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := rfl

/-- The dimension numbers of the counting scatter: rank-1 operand, one scatter index per update, no window axis. -/
abbrev dCnt : ScatterDims S1077248 S8388608x1 S8388608 := scatter_S1077248_S8388608x1_S8388608_n_0_0_1

/-- The counting scatter has no window axis: the window coordinate is zero. -/
theorem cnt_window (j : S8388608.Idx) (a : Fin 1) : dCnt.window j a = 0 := by
  obtain rfl : a = 0 := Subsingleton.elim _ _
  unfold ScatterDims.window
  rw [dif_neg (by decide)]

/-- The start index of update k is the flattened window index at k, read signed: (k / 32768) * 4096 + k % 32768. -/
theorem cnt_start (k : Fin 8388608) (a : Fin 1) :
    dCnt.start (ix1 k) (val_main_v16 (F := Ideal)) a = ((k.val / 32768 * 4096 + k.val % 32768 : Nat) : Int) := by
  obtain rfl : a = 0 := Subsingleton.elim _ _
  have hk := k.isLt
  unfold ScatterDims.start
  rw [dif_pos (show (0 : Fin 1) ∈ dCnt.scatterDimsToOperandDims from List.mem_singleton.mpr rfl)]
  have hsi : dCnt.siIdx (ix1 k) ⟨List.idxOf (0 : Fin 1) dCnt.scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi, val_main_v16_apply]
  have h16 : idx_main_v16 (ix2 k (0 : Fin 1)) = ix1 k := by
    funext a; match a with | ⟨0, _⟩ => rfl
  rw [h16, idx_val_v15, ofNat_toInt _ (by omega)]

/-- Update k lands at position p exactly when (k / 32768) * 4096 + k % 32768 = p (it always lands somewhere: the
    start index is nonnegative and below the extent 1077248). -/
theorem cnt_resultIdx (k : Fin 8388608) (p : Fin 1077248) :
    dCnt.resultIdx? (ix1 k) (val_main_v16 (F := Ideal)) = some (ix1 p)
      ↔ k.val / 32768 * 4096 + k.val % 32768 = p.val := by
  have hp := p.isLt
  unfold ScatterDims.resultIdx?
  split
  · rename_i h
    rw [Option.some.injEq]
    constructor
    · intro hf
      have h0 := congrArg Fin.val (congrFun hf 0)
      simp only [cnt_start, cnt_window] at h0
      change (((k.val / 32768 * 4096 + k.val % 32768 : Nat) : Int) + ((0 : Nat) : Int)).toNat = p.val at h0
      omega
    · intro hv
      funext a
      obtain rfl : a = 0 := Subsingleton.elim _ _
      refine Fin.ext ?_
      show (dCnt.start (ix1 k) (val_main_v16 (F := Ideal)) 0 + (dCnt.window (ix1 k) 0 : Int)).toNat = p.val
      rw [cnt_start, cnt_window]
      omega
  · rename_i h
    constructor
    · intro hh; cases hh
    · intro hv
      exfalso; apply h
      intro a
      obtain rfl : a = 0 := Subsingleton.elim _ _
      rw [cnt_start, cnt_window]
      show _ ∧ _ < ((1077248 : Nat) : Int)
      constructor <;> omega

/-- The flat position of (window, sample): 32768 * b + t. -/
def flatPos (bt : Fin 256 × Fin 32768) : Fin 8388608 :=
  ⟨bt.1.val * 32768 + bt.2.val, by have := bt.1.isLt; have := bt.2.isLt; omega⟩

/-- The (window, sample) of a flat position: (k / 32768, k % 32768). -/
def unflat (k : Fin 8388608) : Fin 256 × Fin 32768 :=
  (⟨k.val / 32768, by have := k.isLt; omega⟩, ⟨k.val % 32768, Nat.mod_lt _ (by decide)⟩)

/-- Splitting a flat position and joining it again gives it back. -/
theorem flat_unflat (j : S8388608.Idx) : ix1 (flatPos (unflat (j 0))) = j := by
  funext a
  match a with
  | ⟨0, _⟩ =>
    refine Fin.ext ?_
    show (j 0).val / 32768 * 32768 + (j 0).val % 32768 = (j 0).val
    omega

/-- Joining a (window, sample) pair and splitting it again gives it back. -/
theorem unflat_flat (bt : Fin 256 × Fin 32768) : unflat ((ix1 (flatPos bt) : S8388608.Idx) 0) = bt := by
  have h1 := bt.1.isLt
  have h2 := bt.2.isLt
  refine Prod.ext (Fin.ext ?_) (Fin.ext ?_)
  · show (bt.1.val * 32768 + bt.2.val) / 32768 = bt.1.val
    omega
  · show (bt.1.val * 32768 + bt.2.val) % 32768 = bt.2.val
    omega

/-- The overlap count at position p: zero plus a one for every (window, sample) pair lying at p. -/
theorem counts_val (p : Fin 1077248) :
    val_main_v18 (F := Ideal) (ix1 p)
      = Ideal.ofBits .f32 0x00000000#32 + ∑ _bt ∈ hits p.val, Ideal.ofBits .f32 0x3F800000#32 := by
  unfold val_main_v18
  rw [scatterAdd_apply, val_main_v9_apply, val_main_cst_apply]
  refine congrArg (fun z => Ideal.ofBits .f32 0x00000000#32 + z) ?_
  refine Finset.sum_nbij' (fun j => unflat (j 0)) (fun bt => ix1 (flatPos bt)) ?_ ?_ ?_ ?_ ?_
  · intro j hj
    have hr := (Finset.mem_filter.mp hj).2
    rw [eq_ix1 j] at hr
    have hv := (cnt_resultIdx (j 0) p).mp hr
    exact Finset.mem_filter.mpr ⟨Finset.mem_univ _, hv⟩
  · intro bt hbt
    have hv : bt.1.val * 4096 + bt.2.val = p.val := (Finset.mem_filter.mp hbt).2
    have h1 := bt.1.isLt
    have h2 := bt.2.isLt
    refine Finset.mem_filter.mpr ⟨Finset.mem_univ _, (cnt_resultIdx (flatPos bt) p).mpr ?_⟩
    show (bt.1.val * 32768 + bt.2.val) / 32768 * 4096 + (bt.1.val * 32768 + bt.2.val) % 32768 = p.val
    omega
  · intro j _
    exact flat_unflat j
  · intro bt _
    exact unflat_flat bt
  · intro j _
    rw [val_main_v17_apply, val_main_cst_2_apply]
    rfl

end Cert.OverlapAdd.Ref

end
-- ==== Proof.RefValue.lean ====
/-
  The reference's last stages and its two results.

  The accumulated buffer (the second scatter) at channel c, position p is zero plus the sum, over the (window, sample)
  pairs (b, t) lying at p, of snapshot[c, p] / counts[p] + update[b, c, t] / 8; by the algebra of one position that is
  the specification's accumulated buffer. The first result is its first 1048576 positions under a leading axis of
  extent one. The second result is the concatenation, along the position axis, of its last 28672 positions and a
  zero array of 1048576 positions: below position 28672 the tail, from there on zero.
-/
import proofs.«129674_j62680752718461_2_alg».proof.Proof.RefScatter
import proofs.«129674_j62680752718461_2_alg».proof.Proof.RefStage39
import proofs.«129674_j62680752718461_2_alg».proof.Proof.RefCounts
import proofs.«129674_j62680752718461_2_alg».proof.Proof.Algebra
import Idealize.ShloMosaic.Lib.Pipeline.Value

noncomputable section

open scoped BigOperators

namespace Cert.OverlapAdd.Ref

open Idealize.ShloMosaic Idealize.ShloMosaic.ValueIdx Cert.ReferenceIdeal Cert.ReferenceIdeal.Gen Cert.ReferenceIdeal.Read Cert.OverlapAdd

variable (x0 : (⟨S256x2x32768, .f32⟩ : BufTy).Contents (Elt Ideal)) (x1 : (⟨S2x1077248, .f32⟩ : BufTy).Contents (Elt Ideal))

/-- The accumulated buffer is the specification's, given the index array, the counts, the scattered array at an index,
    and the algebra of one position. -/
theorem acc47_of
    (hidx : ∀ (b : Fin 256) (t : Fin 32768), val_main_v45 (F := Ideal) (ix2 b t) = BitVec.ofNat 32 (b.val * 4096 + t.val))
    (hcounts : ∀ p : Fin 1077248, val_main_v18 (F := Ideal) (ix1 p) =
      Ideal.ofBits .f32 0x00000000#32 + ∑ _bt ∈ hits p.val, Ideal.ofBits .f32 0x3F800000#32)
    (h39 : ∀ (c : Fin 2) (b : Fin 256) (t : Fin 32768) (h : b.val * 4096 + t.val < 1077248),
      val_main_v39 (F := Ideal) x0 x1 (ix3 c b t) =
        Ideal.div (x1 (ix2 c (⟨b.val * 4096 + t.val, h⟩ : Fin 1077248)))
            (val_main_v18 (F := Ideal) (ix1 (⟨b.val * 4096 + t.val, h⟩ : Fin 1077248))) +
          Ideal.div (x0 (ix3 b c t)) (Ideal.ofBits .f32 0x41000000#32))
    (hacc : ∀ (c : Fin 2) (p : Fin 1077248) (s : ℝ), x1 (ix2 c p) = (s : EReal) →
      Ideal.ofBits .f32 0x00000000#32 + ∑ bt ∈ hits p.val,
        (Ideal.div (x1 (ix2 c p)) (Ideal.ofBits .f32 0x00000000#32 + ∑ _bt ∈ hits p.val, Ideal.ofBits .f32 0x3F800000#32) +
          Ideal.div (x0 (ix3 bt.1 c bt.2)) (Ideal.ofBits .f32 0x41000000#32)) = accum x0 x1 c p)
    (hfin : ∀ i, ∃ r : ℝ, x1 i = (r : EReal)) (c : Fin 2) (p : Fin 1077248) :
    val_main_v47 (F := Ideal) x0 x1 (ix2 c p) = accum x0 x1 c p := by
  obtain ⟨s, hs⟩ := hfin (ix2 c p)
  rw [scatter47 x0 x1 c p hidx, ← hacc c p s hs]
  refine congrArg (fun z => Ideal.ofBits .f32 0x00000000#32 + z) ?_
  refine Finset.sum_congr rfl ?_
  intro bt hbt
  have hm : bt.1.val * 4096 + bt.2.val = p.val := by
    unfold hits at hbt; exact (Finset.mem_filter.mp hbt).2
  have hlt : bt.1.val * 4096 + bt.2.val < 1077248 := by omega
  have hp : (⟨bt.1.val * 4096 + bt.2.val, hlt⟩ : Fin 1077248) = p := Fin.ext hm
  rw [h39 c bt.1 bt.2 hlt, hp, hcounts p]

/-- The first result, given the accumulated buffer. -/
theorem ref_out_of (h47 : ∀ (c : Fin 2) (p : Fin 1077248), val_main_v47 (F := Ideal) x0 x1 (ix2 c p) = accum x0 x1 c p) :
    val_main_v52 (F := Ideal) x0 x1 = outSpec x0 x1 := by
  funext i
  obtain ⟨z, c, q, rfl⟩ : ∃ (z : Fin 1) (c : Fin 2) (q : Fin 1048576), i = ix3 z c q := ⟨i 0, i 1, i 2, eq_ix3 i⟩
  rw [val_main_v52_apply, val_main_v48_apply]
  have e : idx_main_v48 (idx_main_v52 (ix3 z c q)) = ix2 c (Fin.castLE (by decide) q : Fin 1077248) := by
    funext a; match a with | ⟨0, _⟩ => rfl | ⟨1, _⟩ => rfl
  rw [e, h47]
  rfl

/-- The second result's specification at (c, q), by cases on the position. -/
theorem snapSpec_apply (c : Fin 2) (q : Fin 1077248) :
    snapSpec x0 x1 (ix2 c q) = if h : q.val < 28672 then accum x0 x1 c ⟨q.val + 1048576, by omega⟩
      else Ideal.ofBits .f32 0x00000000#32 := rfl

/-- The second result, given the accumulated buffer: below position 28672 the concatenation reads the accumulated
    buffer's tail, from there on the zero array. -/
theorem ref_snap_of (h47 : ∀ (c : Fin 2) (p : Fin 1077248), val_main_v47 (F := Ideal) x0 x1 (ix2 c p) = accum x0 x1 c p) :
    val_main_v51 (F := Ideal) x0 x1 = snapSpec x0 x1 := by
  funext i
  obtain ⟨c, q, rfl⟩ : ∃ (c : Fin 2) (q : Fin 1077248), i = ix2 c q := ⟨i 0, i 1, eq_ix2 i⟩
  rw [snapSpec_apply]
  unfold val_main_v51
  by_cases h : q.val < 28672
  · rw [dif_pos h]
    rw [concatenate_pair_apply_left (1 : Fin 2) (val_main_v49 (F := Ideal) x0 x1) (val_main_v50 (F := Ideal))
      concatenates_S2x28672_S2x1048576_S2x1077248_d1 (ix2 c q) rfl (ix2 c (⟨q.val, h⟩ : Fin 28672))
      (fun b => match b with | ⟨0, _⟩ => rfl | ⟨1, _⟩ => rfl)]
    rw [val_main_v49_apply]
    have e : idx_main_v49 (ix2 c (⟨q.val, h⟩ : Fin 28672)) = ix2 c (⟨q.val + 1048576, by omega⟩ : Fin 1077248) := by
      funext a
      match a with
      | ⟨0, _⟩ => rfl
      | ⟨1, _⟩ => exact Fin.ext (Nat.add_comm _ _)
    rw [e, h47]
  · rw [dif_neg h]
    rw [concatenate_pair_apply_right (1 : Fin 2) (val_main_v49 (F := Ideal) x0 x1) (val_main_v50 (F := Ideal))
      concatenates_S2x28672_S2x1048576_S2x1077248_d1 (ix2 c q) rfl rfl (ix2 c (⟨q.val - 28672, by omega⟩ : Fin 1048576))
      (fun b hb => match b, hb with
        | ⟨0, _⟩, _ => rfl
        | ⟨1, _⟩, hb => absurd rfl hb)
      (by show q.val - 28672 + 28672 = q.val; omega)]
    rw [val_main_v50_apply, val_main_cst_11_apply]
    rfl

/-- The accumulated buffer is the specification's, given only the counts. -/
theorem acc47_of_counts
    (hcounts : ∀ p : Fin 1077248, val_main_v18 (F := Ideal) (ix1 p) =
      Ideal.ofBits .f32 0x00000000#32 + ∑ _bt ∈ hits p.val, Ideal.ofBits .f32 0x3F800000#32)
    (hfin : ∀ i, ∃ r : ℝ, x1 i = (r : EReal)) (c : Fin 2) (p : Fin 1077248) :
    val_main_v47 (F := Ideal) x0 x1 (ix2 c p) = accum x0 x1 c p :=
  acc47_of x0 x1 idx_val_v45 hcounts (fun c b t h => stage39 x0 x1 c b t h)
    (fun c p s hs => acc_eq x0 x1 c p s hs) hfin c p

/-- The first result is the specification's, given only the counts. -/
theorem ref_out_of_counts
    (hcounts : ∀ p : Fin 1077248, val_main_v18 (F := Ideal) (ix1 p) =
      Ideal.ofBits .f32 0x00000000#32 + ∑ _bt ∈ hits p.val, Ideal.ofBits .f32 0x3F800000#32)
    (hfin : ∀ i, ∃ r : ℝ, x1 i = (r : EReal)) :
    val_main_v52 (F := Ideal) x0 x1 = outSpec x0 x1 :=
  ref_out_of x0 x1 (acc47_of_counts x0 x1 hcounts hfin)

/-- The second result is the specification's, given only the counts. -/
theorem ref_snap_of_counts
    (hcounts : ∀ p : Fin 1077248, val_main_v18 (F := Ideal) (ix1 p) =
      Ideal.ofBits .f32 0x00000000#32 + ∑ _bt ∈ hits p.val, Ideal.ofBits .f32 0x3F800000#32)
    (hfin : ∀ i, ∃ r : ℝ, x1 i = (r : EReal)) :
    val_main_v51 (F := Ideal) x0 x1 = snapSpec x0 x1 :=
  ref_snap_of x0 x1 (acc47_of_counts x0 x1 hcounts hfin)

/-- THE FIRST RESULT of the reference, for a finite snapshot, is the specification's. -/
theorem ref_out (hfin : ∀ i, ∃ r : ℝ, x1 i = (r : EReal)) : val_main_v52 (F := Ideal) x0 x1 = outSpec x0 x1 :=
  ref_out_of_counts x0 x1 counts_val hfin

/-- THE SECOND RESULT of the reference, for a finite snapshot, is the specification's. -/
theorem ref_snap (hfin : ∀ i, ∃ r : ℝ, x1 i = (r : EReal)) : val_main_v51 (F := Ideal) x0 x1 = snapSpec x0 x1 :=
  ref_snap_of_counts x0 x1 counts_val hfin

end Cert.OverlapAdd.Ref

end
-- ==== Proof.Finite.lean ====
/-
  Finiteness from the precondition.

  The precondition says that every element of the update array and every element of the snapshot has an absolute
  value below +∞. Over the extended reals, with |x| = max x (-x), that holds at neither infinity, so every such
  element is a real number.
-/
import proofs.«129674_j62680752718461_2_alg».proof.Pre_finite_inputs
import Idealize.ShloMosaic.Lib.ReduceAll
import Idealize.ShloMosaic.Lib.ValueIdx

noncomputable section

namespace Cert.OverlapAdd

open Idealize.ShloMosaic Idealize.ShloMosaic.ValueIdx

variable [Cert.Pre_finite_inputs.Facts]

/-- The rank-zero shape has one index. -/
instance : Subsingleton Cert.Pre_finite_inputs.S_.Idx := ⟨fun a b => funext fun d => d.elim0⟩

/-- The word of +∞ denotes ⊤. -/
theorem inf_eq : Ideal.ofBits .f32 0x7F800000#32 = (⊤ : EReal) := by
  simp [Ideal.ofBits, Ideal.ieee]

/-- An extended real whose absolute value is below +∞ is a real: at ⊥ and at ⊤ the absolute value is ⊤. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- The precondition, element by element: both comparisons hold everywhere. -/
theorem pre_elems (x0 : FVec Ideal Cert.Pre_finite_inputs.S256x2x32768 .f32)
    (x1 : FVec Ideal Cert.Pre_finite_inputs.S2x1077248 .f32)
    (h : Cert.Pre_finite_inputs.fn (F := Ideal) x0 x1 = fun _ => 1#1) :
    (∀ i, Ideal.cmp .olt (max (x0 i) (-(x0 i))) (Ideal.ofBits .f32 0x7F800000#32) = 1#1) ∧
    (∀ i, Ideal.cmp .olt (max (x1 i) (-(x1 i))) (Ideal.ofBits .f32 0x7F800000#32) = 1#1) := by
  have h0 := congrFun h ix0
  dsimp only [Cert.Pre_finite_inputs.fn] at h0
  obtain ⟨ha, hb⟩ := IntOp.andi_eq_one.1 h0
  exact ⟨fun i => Host.reduce_andi_all _ _ _ _ _ ha i, fun i => Host.reduce_andi_all _ _ _ _ _ hb i⟩

/-- Under the precondition every element of the snapshot is a real. -/
theorem snap_finite (x0 : FVec Ideal Cert.Pre_finite_inputs.S256x2x32768 .f32)
    (x1 : FVec Ideal Cert.Pre_finite_inputs.S2x1077248 .f32)
    (h : Cert.Pre_finite_inputs.fn (F := Ideal) x0 x1 = fun _ => 1#1)
    (i : Cert.Pre_finite_inputs.S2x1077248.Idx) : ∃ r : ℝ, x1 i = (r : EReal) :=
  real_of_abs_lt_inf _ ((pre_elems x0 x1 h).2 i)

/-- Under the precondition every element of the update array is a real. -/
theorem upd_finite (x0 : FVec Ideal Cert.Pre_finite_inputs.S256x2x32768 .f32)
    (x1 : FVec Ideal Cert.Pre_finite_inputs.S2x1077248 .f32)
    (h : Cert.Pre_finite_inputs.fn (F := Ideal) x0 x1 = fun _ => 1#1)
    (i : Cert.Pre_finite_inputs.S256x2x32768.Idx) : ∃ r : ℝ, x0 i = (r : EReal) :=
  real_of_abs_lt_inf _ ((pre_elems x0 x1 h).1 i)

end Cert.OverlapAdd

end
-- ==== Proof.lean ====
/-
  The certificate's claims for the overlap-add kernel against its scatter-gather reference.

  Both programs read an update array of 256 windows × 2 channels × 32768 samples and a snapshot of 2 channels × 1077248
  positions; window b lies over positions 4096·b … 4096·b + 32767. The reference divides every snapshot entry by the
  number of windows over it, adds each window sample divided by eight, and scatter-adds the windowed sums back: at a
  position covered by n ≥ 1 windows the n shares of the snapshot entry sum back to the entry itself when it is a real
  number, which the precondition (every input finite) provides. The kernel adds an eighth of every window onto the
  snapshot, 64 windows per grid point. Over the extended reals both leave, at every position, the snapshot plus an
  eighth of every window sample over it (Spec.lean); the two results are that array's first 1048576 positions and its
  last 28672 positions moved to the front of a zero array.

  The three frames: the two kernel programs' from their frame runs (the word-level one and the idealized one), the
  reference's from its run with the results dropped. The ideal pass rewrote nothing, so there is nothing to preserve.
-/
import proofs.«129674_j62680752718461_2_alg».proof.Defs
import proofs.«129674_j62680752718461_2_alg».proof.Proof.Gen.Kernel
import proofs.«129674_j62680752718461_2_alg».proof.Proof.Gen.KernelIdeal
import proofs.«129674_j62680752718461_2_alg».proof.Proof.Gen.ReferenceIdeal
import proofs.«129674_j62680752718461_2_alg».proof.Proof.Gen.Pre_finite_inputs
import proofs.«129674_j62680752718461_2_alg».proof.Proof.Gen.ReferenceIdeal.Run
import proofs.«129674_j62680752718461_2_alg».proof.Proof.Gen.ReferenceIdeal.Read
import proofs.«129674_j62680752718461_2_alg».proof.Proof.KernelFrame
import proofs.«129674_j62680752718461_2_alg».proof.Proof.KRun
import proofs.«129674_j62680752718461_2_alg».proof.Proof.RefValue
import proofs.«129674_j62680752718461_2_alg».proof.Proof.Finite
import Idealize.ShloMosaic.Adequacy
import Idealize.ShloMosaic.Init

noncomputable section

namespace Cert.Proof

open Idealize.ShloMosaic Idealize.SL.Sem Cert.OverlapAdd

/-- The word-level kernel program runs and keeps its arguments. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Over the extended reals, from memories agreeing on the two arguments, the idealized kernel and the reference both
    end with the accumulated buffer's two slices (Spec.lean's `outSpec` and `snapSpec` of the arguments): the kernel by
    its run read point by point, the reference by its stages read index by index, the snapshot finite by the
    precondition. -/
theorem algebraic : Cert.algebraic_KernelIdeal_ReferenceIdeal := by
  intro m ρ m' ρ' hpre hagree
  refine ⟨fun c => outSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => snapSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ?_) (Cert.ReferenceIdeal.Value.run (F := Ideal) m' ρ')
  have hfin := Cert.OverlapAdd.snap_finite _ _ (hpre c)
  refine ⟨(h c).1.trans ?_, (h c).2.1.trans ?_, (h c).2.2.1, (h c).2.2.2⟩
  · rw [Cert.ReferenceIdeal.Read.val_main_v52_eq, (hagree c).1, (hagree c).2]
    exact Cert.OverlapAdd.Ref.ref_out _ _ hfin
  · rw [Cert.ReferenceIdeal.Read.val_main_v51_eq, (hagree c).1, (hagree c).2]
    exact Cert.OverlapAdd.Ref.ref_snap _ _ hfin

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
